-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v43) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x768 : Shape := ⟨3, ![4, 2048, 768]⟩
abbrev S768x2304 : Shape := ⟨2, ![768, 2304]⟩
abbrev S2304 : Shape := ⟨1, ![2304]⟩
abbrev S768x768 : Shape := ⟨2, ![768, 768]⟩
abbrev S768 : Shape := ⟨1, ![768]⟩
abbrev S_ : Shape := ⟨0, ![]⟩

class Facts : Prop where
  bcast_S_S4x2048x768 : S_.BroadcastsInDim S4x2048x768 (![] : Fin 0 → Fin S4x2048x768.rank)
  reducesTo_S4x2048x768_S_d0_1_2 : S4x2048x768.ReducesTo [0, 1, 2] S_
  h_S_ : 0 < S_.numel
  bcast_S_S768x2304 : S_.BroadcastsInDim S768x2304 (![] : Fin 0 → Fin S768x2304.rank)
  reducesTo_S768x2304_S_d0_1 : S768x2304.ReducesTo [0, 1] S_
  bcast_S_S2304 : S_.BroadcastsInDim S2304 (![] : Fin 0 → Fin S2304.rank)
  reducesTo_S2304_S_d0 : S2304.ReducesTo [0] S_
  bcast_S_S768x768 : S_.BroadcastsInDim S768x768 (![] : Fin 0 → Fin S768x768.rank)
  reducesTo_S768x768_S_d0_1 : S768x768.ReducesTo [0, 1] S_
  bcast_S_S768 : S_.BroadcastsInDim S768 (![] : Fin 0 → Fin S768.rank)
  reducesTo_S768_S_d0 : S768.ReducesTo [0] S_

variable [Facts]

def fn_part1 {F : FTy → Type} [FloatOps F] (main_arg4 : FVec F S768 .f32) (main_v13 : IVec S_ 1) (main_v16 : IVec S768x768 1) : IVec S_ 1 :=
  let main_c_5 : IVec S_ 1 := constantI S_ 1 1#1
  let main_v17 : IVec S_ 1 := (fun x v => Host.reduce IntOp.andi x v reducesTo_S768x768_S_d0_1 h_S_) main_v16 main_c_5
  let main_v18 : IVec S_ 1 := andi main_v13 main_v17
  let main_v19 : FVec F S768 .f32 := Host.absf main_arg4
  let main_cst_6 : FVec F S_ .f32 := constant S_ .f32 0x7F800000#32
  let main_v20 : FVec F S768 .f32 := broadcastInDim S768 ![] bcast_S_S768 main_cst_6
  let main_v21 : IVec S768 1 := cmpf .olt main_v19 main_v20
  let main_c_7 : IVec S_ 1 := constantI S_ 1 1#1
  let main_v22 : IVec S_ 1 := (fun x v => Host.reduce IntOp.andi x v reducesTo_S768_S_d0 h_S_) main_v21 main_c_7
  let main_v23 : IVec S_ 1 := andi main_v18 main_v22
  main_v23

def fn {F : FTy → Type} [FloatOps F] (main_arg0 : FVec F S4x2048x768 .f32) (main_arg1 : FVec F S768x2304 .f32) (main_arg2 : FVec F S2304 .f32) (main_arg3 : FVec F S768x768 .f32) (main_arg4 : FVec F S768 .f32) : IVec S_ 1 :=
  let main_v0 : FVec F S4x2048x768 .f32 := Host.absf main_arg0
  let main_cst : FVec F S_ .f32 := constant S_ .f32 0x7F800000#32
  let main_v1 : FVec F S4x2048x768 .f32 := broadcastInDim S4x2048x768 ![] bcast_S_S4x2048x768 main_cst
  let main_v2 : IVec S4x2048x768 1 := cmpf .olt main_v0 main_v1
  let main_c : IVec S_ 1 := constantI S_ 1 1#1
  let main_v3 : IVec S_ 1 := (fun x v => Host.reduce IntOp.andi x v reducesTo_S4x2048x768_S_d0_1_2 h_S_) main_v2 main_c
  let main_v4 : FVec F S768x2304 .f32 := Host.absf main_arg1
  let main_cst_0 : FVec F S_ .f32 := constant S_ .f32 0x7F800000#32
  let main_v5 : FVec F S768x2304 .f32 := broadcastInDim S768x2304 ![] bcast_S_S768x2304 main_cst_0
  let main_v6 : IVec S768x2304 1 := cmpf .olt main_v4 main_v5
  let main_c_1 : IVec S_ 1 := constantI S_ 1 1#1
  let main_v7 : IVec S_ 1 := (fun x v => Host.reduce IntOp.andi x v reducesTo_S768x2304_S_d0_1 h_S_) main_v6 main_c_1
  let main_v8 : IVec S_ 1 := andi main_v3 main_v7
  let main_v9 : FVec F S2304 .f32 := Host.absf main_arg2
  let main_cst_2 : FVec F S_ .f32 := constant S_ .f32 0x7F800000#32
  let main_v10 : FVec F S2304 .f32 := broadcastInDim S2304 ![] bcast_S_S2304 main_cst_2
  let main_v11 : IVec S2304 1 := cmpf .olt main_v9 main_v10
  let main_c_3 : IVec S_ 1 := constantI S_ 1 1#1
  let main_v12 : IVec S_ 1 := (fun x v => Host.reduce IntOp.andi x v reducesTo_S2304_S_d0 h_S_) main_v11 main_c_3
  let main_v13 : IVec S_ 1 := andi main_v8 main_v12
  let main_v14 : FVec F S768x768 .f32 := Host.absf main_arg3
  let main_cst_4 : FVec F S_ .f32 := constant S_ .f32 0x7F800000#32
  let main_v15 : FVec F S768x768 .f32 := broadcastInDim S768x768 ![] bcast_S_S768x768 main_cst_4
  let main_v16 : IVec S768x768 1 := cmpf .olt main_v14 main_v15
  fn_part1 (F := F) main_arg4 main_v13 main_v16
-- ==== Kernel.lean ====
abbrev S4x2048x768 : Shape := ⟨3, ![4, 2048, 768]⟩
abbrev S768x2304 : Shape := ⟨2, ![768, 2304]⟩
abbrev S2304 : Shape := ⟨1, ![2304]⟩
abbrev S768x768 : Shape := ⟨2, ![768, 768]⟩
abbrev S768 : Shape := ⟨1, ![768]⟩
abbrev S8192x768 : Shape := ⟨2, ![8192, 768]⟩
abbrev S1x2304 : Shape := ⟨2, ![1, 2304]⟩
abbrev S8192x2304 : Shape := ⟨2, ![8192, 2304]⟩
abbrev S512x768 : Shape := ⟨2, ![512, 768]⟩
abbrev S512x2304 : Shape := ⟨2, ![512, 2304]⟩
abbrev S1x256x768 : Shape := ⟨3, ![1, 256, 768]⟩
abbrev S1x2048x768 : Shape := ⟨3, ![1, 2048, 768]⟩
abbrev S256x2048 : Shape := ⟨2, ![256, 2048]⟩
abbrev S1x256x64 : Shape := ⟨3, ![1, 256, 64]⟩
abbrev S256x64 : Shape := ⟨2, ![256, 64]⟩
abbrev S1x2048x64 : Shape := ⟨3, ![1, 2048, 64]⟩
abbrev S2048x64 : Shape := ⟨2, ![2048, 64]⟩
abbrev S256 : Shape := ⟨1, ![256]⟩
abbrev S256x1 : Shape := ⟨2, ![256, 1]⟩
abbrev S1x768 : Shape := ⟨2, ![1, 768]⟩

abbrev nBuf : Space → Nat
  | .hbm => 19
  | .vmem => 20
  | .smem => 0
  | _ => 0

abbrev bufTy : (tb : Table) → Fin (tcTables nBuf tb) → BufTy
  | .hbm, ⟨0, _⟩ => ⟨S4x2048x768, .f32⟩
  | .hbm, ⟨1, _⟩ => ⟨S768x2304, .f32⟩
  | .hbm, ⟨2, _⟩ => ⟨S2304, .f32⟩
  | .hbm, ⟨3, _⟩ => ⟨S768x768, .f32⟩
  | .hbm, ⟨4, _⟩ => ⟨S768, .f32⟩
  | .hbm, ⟨5, _⟩ => ⟨S8192x768, .f32⟩
  | .hbm, ⟨6, _⟩ => ⟨S1x2304, .f32⟩
  | .hbm, ⟨7, _⟩ => ⟨S8192x2304, .bf16⟩
  | .hbm, ⟨8, _⟩ => ⟨S8192x768, .bf16⟩
  | .hbm, ⟨9, _⟩ => ⟨S8192x768, .bf16⟩
  | .hbm, ⟨10, _⟩ => ⟨S8192x768, .bf16⟩
  | .hbm, ⟨11, _⟩ => ⟨S4x2048x768, .bf16⟩
  | .hbm, ⟨12, _⟩ => ⟨S4x2048x768, .bf16⟩
  | .hbm, ⟨13, _⟩ => ⟨S4x2048x768, .bf16⟩
  | .hbm, ⟨14, _⟩ => ⟨S4x2048x768, .bf16⟩
  | .hbm, ⟨15, _⟩ => ⟨S8192x768, .bf16⟩
  | .hbm, ⟨16, _⟩ => ⟨S1x768, .f32⟩
  | .hbm, ⟨17, _⟩ => ⟨S8192x768, .f32⟩
  | .hbm, ⟨18, _⟩ => ⟨S4x2048x768, .f32⟩
  | .local _ .vmem, ⟨0, _⟩ => ⟨S512x768, .f32⟩
  | .local _ .vmem, ⟨1, _⟩ => ⟨S512x768, .f32⟩
  | .local _ .vmem, ⟨2, _⟩ => ⟨S768x2304, .f32⟩
  | .local _ .vmem, ⟨3, _⟩ => ⟨S1x2304, .f32⟩
  | .local _ .vmem, ⟨4, _⟩ => ⟨S512x2304, .bf16⟩
  | .local _ .vmem, ⟨5, _⟩ => ⟨S512x2304, .bf16⟩
  | .local _ .vmem, ⟨6, _⟩ => ⟨S1x256x768, .bf16⟩
  | .local _ .vmem, ⟨7, _⟩ => ⟨S1x256x768, .bf16⟩
  | .local _ .vmem, ⟨8, _⟩ => ⟨S1x2048x768, .bf16⟩
  | .local _ .vmem, ⟨9, _⟩ => ⟨S1x2048x768, .bf16⟩
  | .local _ .vmem, ⟨10, _⟩ => ⟨S1x2048x768, .bf16⟩
  | .local _ .vmem, ⟨11, _⟩ => ⟨S1x2048x768, .bf16⟩
  | .local _ .vmem, ⟨12, _⟩ => ⟨S1x256x768, .bf16⟩
  | .local _ .vmem, ⟨13, _⟩ => ⟨S1x256x768, .bf16⟩
  | .local _ .vmem, ⟨14, _⟩ => ⟨S512x768, .bf16⟩
  | .local _ .vmem, ⟨15, _⟩ => ⟨S512x768, .bf16⟩
  | .local _ .vmem, ⟨16, _⟩ => ⟨S768x768, .f32⟩
  | .local _ .vmem, ⟨17, _⟩ => ⟨S1x768, .f32⟩
  | .local _ .vmem, ⟨18, _⟩ => ⟨S512x768, .f32⟩
  | .local _ .vmem, ⟨19, _⟩ => ⟨S512x768, .f32⟩
  | _, _ => ⟨S4x2048x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg3_0 : Ref sig .tc := ⟨.vmem, 18, rfl⟩
abbrev cc2_stg3_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem3_0 : DmaSem sig := 18
abbrev cc2_sem3_1 : DmaSem sig := 19

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S768x2304 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2304 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2304 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨2, ![4, 8], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x256x768 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x2048x768 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x2048x768 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x256x768 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev grid2 : Pipeline.Grid := ⟨1, ![16], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S512x768 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S768x768 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x768 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S512x768 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  shapeCasts_S4x2048x768_S8192x768 : S4x2048x768.ShapeCasts S8192x768
  shapeCasts_S2304_S1x2304 : S2304.ShapeCasts S1x2304
  inb_S512x768_S512x768_0_0 : ∀ a, (![0, 0] : Fin 2 → Nat) a + S512x768.size a ≤ S512x768.size a
  h_S512x768 : 0 < S512x768.numel
  shapeCasts_S512x768_S512x768 : S512x768.ShapeCasts S512x768
  bitsLt_bf16_f32 : FTy.bits .bf16 < FTy.bits .f32
  inb_S768x2304_S768x2304_0_0 : ∀ a, (![0, 0] : Fin 2 → Nat) a + S768x2304.size a ≤ S768x2304.size a
  h_S768x2304 : 0 < S768x2304.numel
  inb_S1x2304_S1x2304_0_0 : ∀ a, (![0, 0] : Fin 2 → Nat) a + S1x2304.size a ≤ S1x2304.size a
  h_S1x2304 : 0 < S1x2304.numel
  shapeCasts_S1x2304_S1x2304 : S1x2304.ShapeCasts S1x2304
  broadcasts_S1x2304_S512x2304 : S1x2304.Broadcasts S512x2304
  inb_S512x2304_S512x2304_0_0 : ∀ a, (![0, 0] : Fin 2 → Nat) a + S512x2304.size a ≤ S512x2304.size a
  h_S512x2304 : 0 < S512x2304.numel
  packedbf16_S512x2304_S512x2304_0_0 : (Rect.unit (s := S512x2304) ![0, 0] S512x2304.size inb_S512x2304_S512x2304_0_0).PackedRows (EltTy.packing .bf16)
  slices_S8192x2304_S8192x768_0_0 : S8192x2304.Slices ![0, 0] S8192x768
  slices_S8192x2304_S8192x768_0_768 : S8192x2304.Slices ![0, 768] S8192x768
  slices_S8192x2304_S8192x768_0_1536 : S8192x2304.Slices ![0, 1536] S8192x768
  shapeCasts_S8192x768_S4x2048x768 : S8192x768.ShapeCasts S4x2048x768
  iota_S256x2048_d0_w32 : S256x2048.Iotas .tc 32 [0]
  iota_S256x2048_d1_w32 : S256x2048.Iotas .tc 32 [1]
  inb_S1x256x768_S1x256x64_0_0_0 : ∀ a, (![0, 0, 0] : Fin 3 → Nat) a + S1x256x64.size a ≤ S1x256x768.size a
  h_S1x256x64 : 0 < S1x256x64.numel
  shapeCasts_S1x256x64_S256x64 : S1x256x64.ShapeCasts S256x64
  inb_S1x2048x768_S1x2048x64_0_0_0 : ∀ a, (![0, 0, 0] : Fin 3 → Nat) a + S1x2048x64.size a ≤ S1x2048x768.size a
  h_S1x2048x64 : 0 < S1x2048x64.numel
  shapeCasts_S1x2048x64_S2048x64 : S1x2048x64.ShapeCasts S2048x64
  reduces_S256x2048_S256 : S256x2048.Reduces [1] S256
  shapeCasts_S256_S256x1 : S256.ShapeCasts S256x1
  broadcasts_S256x1_S256x2048 : S256x1.Broadcasts S256x2048
  shapeCasts_S256x64_S1x256x64 : S256x64.ShapeCasts S1x256x64
  packedbf16_S1x256x768_S1x256x64_0_0_0 : (Rect.unit (s := S1x256x768) ![0, 0, 0] S1x256x64.size inb_S1x256x768_S1x256x64_0_0_0).PackedRows (EltTy.packing .bf16)
  inb_S1x256x768_S1x256x64_0_0_64 : ∀ a, (![0, 0, 64] : Fin 3 → Nat) a + S1x256x64.size a ≤ S1x256x768.size a
  inb_S1x2048x768_S1x2048x64_0_0_64 : ∀ a, (![0, 0, 64] : Fin 3 → Nat) a + S1x2048x64.size a ≤ S1x2048x768.size a
  packedbf16_S1x256x768_S1x256x64_0_0_64 : (Rect.unit (s := S1x256x768) ![0, 0, 64] S1x256x64.size inb_S1x256x768_S1x256x64_0_0_64).PackedRows (EltTy.packing .bf16)
  inb_S1x256x768_S1x256x64_0_0_128 : ∀ a, (![0, 0, 128] : Fin 3 → Nat) a + S1x256x64.size a ≤ S1x256x768.size a
  inb_S1x2048x768_S1x2048x64_0_0_128 : ∀ a, (![0, 0, 128] : Fin 3 → Nat) a + S1x2048x64.size a ≤ S1x2048x768.size a
  packedbf16_S1x256x768_S1x256x64_0_0_128 : (Rect.unit (s := S1x256x768) ![0, 0, 128] S1x256x64.size inb_S1x256x768_S1x256x64_0_0_128).PackedRows (EltTy.packing .bf16)
  inb_S1x256x768_S1x256x64_0_0_192 : ∀ a, (![0, 0, 192] : Fin 3 → Nat) a + S1x256x64.size a ≤ S1x256x768.size a
  inb_S1x2048x768_S1x2048x64_0_0_192 : ∀ a, (![0, 0, 192] : Fin 3 → Nat) a + S1x2048x64.size a ≤ S1x2048x768.size a
  packedbf16_S1x256x768_S1x256x64_0_0_192 : (Rect.unit (s := S1x256x768) ![0, 0, 192] S1x256x64.size inb_S1x256x768_S1x256x64_0_0_192).PackedRows (EltTy.packing .bf16)
  inb_S1x256x768_S1x256x64_0_0_256 : ∀ a, (![0, 0, 256] : Fin 3 → Nat) a + S1x256x64.size a ≤ S1x256x768.size a
  inb_S1x2048x768_S1x2048x64_0_0_256 : ∀ a, (![0, 0, 256] : Fin 3 → Nat) a + S1x2048x64.size a ≤ S1x2048x768.size a
  packedbf16_S1x256x768_S1x256x64_0_0_256 : (Rect.unit (s := S1x256x768) ![0, 0, 256] S1x256x64.size inb_S1x256x768_S1x256x64_0_0_256).PackedRows (EltTy.packing .bf16)
  inb_S1x256x768_S1x256x64_0_0_320 : ∀ a, (![0, 0, 320] : Fin 3 → Nat) a + S1x256x64.size a ≤ S1x256x768.size a
  inb_S1x2048x768_S1x2048x64_0_0_320 : ∀ a, (![0, 0, 320] : Fin 3 → Nat) a + S1x2048x64.size a ≤ S1x2048x768.size a
  packedbf16_S1x256x768_S1x256x64_0_0_320 : (Rect.unit (s := S1x256x768) ![0, 0, 320] S1x256x64.size inb_S1x256x768_S1x256x64_0_0_320).PackedRows (EltTy.packing .bf16)
  inb_S1x256x768_S1x256x64_0_0_384 : ∀ a, (![0, 0, 384] : Fin 3 → Nat) a + S1x256x64.size a ≤ S1x256x768.size a
  inb_S1x2048x768_S1x2048x64_0_0_384 : ∀ a, (![0, 0, 384] : Fin 3 → Nat) a + S1x2048x64.size a ≤ S1x2048x768.size a
  packedbf16_S1x256x768_S1x256x64_0_0_384 : (Rect.unit (s := S1x256x768) ![0, 0, 384] S1x256x64.size inb_S1x256x768_S1x256x64_0_0_384).PackedRows (EltTy.packing .bf16)
  inb_S1x256x768_S1x256x64_0_0_448 : ∀ a, (![0, 0, 448] : Fin 3 → Nat) a + S1x256x64.size a ≤ S1x256x768.size a
  inb_S1x2048x768_S1x2048x64_0_0_448 : ∀ a, (![0, 0, 448] : Fin 3 → Nat) a + S1x2048x64.size a ≤ S1x2048x768.size a
  packedbf16_S1x256x768_S1x256x64_0_0_448 : (Rect.unit (s := S1x256x768) ![0, 0, 448] S1x256x64.size inb_S1x256x768_S1x256x64_0_0_448).PackedRows (EltTy.packing .bf16)
  inb_S1x256x768_S1x256x64_0_0_512 : ∀ a, (![0, 0, 512] : Fin 3 → Nat) a + S1x256x64.size a ≤ S1x256x768.size a
  inb_S1x2048x768_S1x2048x64_0_0_512 : ∀ a, (![0, 0, 512] : Fin 3 → Nat) a + S1x2048x64.size a ≤ S1x2048x768.size a
  packedbf16_S1x256x768_S1x256x64_0_0_512 : (Rect.unit (s := S1x256x768) ![0, 0, 512] S1x256x64.size inb_S1x256x768_S1x256x64_0_0_512).PackedRows (EltTy.packing .bf16)
  inb_S1x256x768_S1x256x64_0_0_576 : ∀ a, (![0, 0, 576] : Fin 3 → Nat) a + S1x256x64.size a ≤ S1x256x768.size a
  inb_S1x2048x768_S1x2048x64_0_0_576 : ∀ a, (![0, 0, 576] : Fin 3 → Nat) a + S1x2048x64.size a ≤ S1x2048x768.size a
  packedbf16_S1x256x768_S1x256x64_0_0_576 : (Rect.unit (s := S1x256x768) ![0, 0, 576] S1x256x64.size inb_S1x256x768_S1x256x64_0_0_576).PackedRows (EltTy.packing .bf16)
  inb_S1x256x768_S1x256x64_0_0_640 : ∀ a, (![0, 0, 640] : Fin 3 → Nat) a + S1x256x64.size a ≤ S1x256x768.size a
  inb_S1x2048x768_S1x2048x64_0_0_640 : ∀ a, (![0, 0, 640] : Fin 3 → Nat) a + S1x2048x64.size a ≤ S1x2048x768.size a
  packedbf16_S1x256x768_S1x256x64_0_0_640 : (Rect.unit (s := S1x256x768) ![0, 0, 640] S1x256x64.size inb_S1x256x768_S1x256x64_0_0_640).PackedRows (EltTy.packing .bf16)
  inb_S1x256x768_S1x256x64_0_0_704 : ∀ a, (![0, 0, 704] : Fin 3 → Nat) a + S1x256x64.size a ≤ S1x256x768.size a
  inb_S1x2048x768_S1x2048x64_0_0_704 : ∀ a, (![0, 0, 704] : Fin 3 → Nat) a + S1x2048x64.size a ≤ S1x2048x768.size a
  packedbf16_S1x256x768_S1x256x64_0_0_704 : (Rect.unit (s := S1x256x768) ![0, 0, 704] S1x256x64.size inb_S1x256x768_S1x256x64_0_0_704).PackedRows (EltTy.packing .bf16)
  shapeCasts_S768_S1x768 : S768.ShapeCasts S1x768
  inb_S768x768_S768x768_0_0 : ∀ a, (![0, 0] : Fin 2 → Nat) a + S768x768.size a ≤ S768x768.size a
  h_S768x768 : 0 < S768x768.numel
  inb_S1x768_S1x768_0_0 : ∀ a, (![0, 0] : Fin 2 → Nat) a + S1x768.size a ≤ S1x768.size a
  h_S1x768 : 0 < S1x768.numel
  shapeCasts_S1x768_S1x768 : S1x768.ShapeCasts S1x768
  broadcasts_S1x768_S512x768 : S1x768.Broadcasts S512x768
  dot_S512x768_S768x2304_S512x2304_1_0_0_1_n_n_wf : DotDims.WF S512x768 S768x2304 S512x2304 [1] [0] [0] [1] [] []
  dot_S256x64_S2048x64_S256x2048_1_1_0_0_n_n_wf : DotDims.WF S256x64 S2048x64 S256x2048 [1] [1] [0] [0] [] []
  dot_S256x2048_S2048x64_S256x64_1_0_0_1_n_n_wf : DotDims.WF S256x2048 S2048x64 S256x64 [1] [0] [0] [1] [] []
  dot_S512x768_S768x768_S512x768_1_0_0_1_n_n_wf : DotDims.WF S512x768 S768x768 S512x768 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x768.size a ≤ S8192x768.size a
  hwx0_0 : ∀ i : grid0.Coords, EltTy.bits .f32 = 32 ∨ (Rect.block (s := S8192x768) S512x768.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S768x2304.size a ≤ S768x2304.size a
  hwx0_1 : ∀ i : grid0.Coords, EltTy.bits .f32 = 32 ∨ (Rect.block (s := S768x2304) S768x2304.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x2304.size a ≤ S1x2304.size a
  hwx0_2 : ∀ i : grid0.Coords, EltTy.bits .f32 = 32 ∨ (Rect.block (s := S1x2304) S1x2304.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x2304.size a ≤ S8192x2304.size a
  hwx0_3 : ∀ i : grid0.Coords, EltTy.bits .bf16 = 32 ∨ (Rect.block (s := S8192x2304) S512x2304.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x256x768.size a ≤ S4x2048x768.size a
  hwx1_0 : ∀ i : grid1.Coords, EltTy.bits .bf16 = 32 ∨ (Rect.block (s := S4x2048x768) S1x256x768.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x2048x768.size a ≤ S4x2048x768.size a
  hwx1_1 : ∀ i : grid1.Coords, EltTy.bits .bf16 = 32 ∨ (Rect.block (s := S4x2048x768) S1x2048x768.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x2048x768.size a ≤ S4x2048x768.size a
  hwx1_2 : ∀ i : grid1.Coords, EltTy.bits .bf16 = 32 ∨ (Rect.block (s := S4x2048x768) S1x2048x768.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x256x768.size a ≤ S4x2048x768.size a
  hwx1_3 : ∀ i : grid1.Coords, EltTy.bits .bf16 = 32 ∨ (Rect.block (s := S4x2048x768) S1x256x768.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S512x768.size a ≤ S8192x768.size a
  hwx2_0 : ∀ i : grid2.Coords, EltTy.bits .bf16 = 32 ∨ (Rect.block (s := S8192x768) S512x768.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S768x768.size a ≤ S768x768.size a
  hwx2_1 : ∀ i : grid2.Coords, EltTy.bits .f32 = 32 ∨ (Rect.block (s := S768x768) S768x768.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x768.size a ≤ S1x768.size a
  hwx2_2 : ∀ i : grid2.Coords, EltTy.bits .f32 = 32 ∨ (Rect.block (s := S1x768) S1x768.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S512x768.size a ≤ S8192x768.size a
  hwx2_3 : ∀ i : grid2.Coords, EltTy.bits .f32 = 32 ∨ (Rect.block (s := S8192x768) S512x768.size (cc2_transform_3 i) (hinb2_3 i)).WholeWords (EltTy.packing .f32)

variable [Facts₀]

def dot_S512x768_S768x2304_S512x2304_1_0_0_1_n_n : DotDims S512x768 S768x2304 S512x2304 where
  lhsContracting := [1]
  rhsContracting := [0]
  lhsNonContracting := [0]
  rhsNonContracting := [1]
  lhsBatch := []
  rhsBatch := []
  wf := dot_S512x768_S768x2304_S512x2304_1_0_0_1_n_n_wf
def dot_S256x64_S2048x64_S256x2048_1_1_0_0_n_n : DotDims S256x64 S2048x64 S256x2048 where
  lhsContracting := [1]
  rhsContracting := [1]
  lhsNonContracting := [0]
  rhsNonContracting := [0]
  lhsBatch := []
  rhsBatch := []
  wf := dot_S256x64_S2048x64_S256x2048_1_1_0_0_n_n_wf
def dot_S256x2048_S2048x64_S256x64_1_0_0_1_n_n : DotDims S256x2048 S2048x64 S256x64 where
  lhsContracting := [1]
  rhsContracting := [0]
  lhsNonContracting := [0]
  rhsNonContracting := [1]
  lhsBatch := []
  rhsBatch := []
  wf := dot_S256x2048_S2048x64_S256x64_1_0_0_1_n_n_wf
def dot_S512x768_S768x768_S512x768_1_0_0_1_n_n : DotDims S512x768 S768x768 S512x768 where
  lhsContracting := [1]
  rhsContracting := [0]
  lhsNonContracting := [0]
  rhsNonContracting := [1]
  lhsBatch := []
  rhsBatch := []
  wf := dot_S512x768_S768x768_S512x768_1_0_0_1_n_n_wf

abbrev win0_0 : Pipeline.Window sig grid0 :=
  Pipeline.Window.ofSpec (Memref.whole main_v0) S512x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S768x2304.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x2304.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S512x2304.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v6) S1x256x768.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v7) S1x2048x768.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v8) S1x2048x768.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v9) S1x256x768.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v10) S512x768.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg3) S768x768.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v11) S1x768.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v12) S512x768.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S4x2048x768 : Shape := ⟨3, ![4, 2048, 768]⟩
abbrev S768x2304 : Shape := ⟨2, ![768, 2304]⟩
abbrev S2304 : Shape := ⟨1, ![2304]⟩
abbrev S768x768 : Shape := ⟨2, ![768, 768]⟩
abbrev S768 : Shape := ⟨1, ![768]⟩
abbrev S4x2048x2304 : Shape := ⟨3, ![4, 2048, 2304]⟩
abbrev S1x1x2304 : Shape := ⟨3, ![1, 1, 2304]⟩
abbrev S4x2048x12x64 : Shape := ⟨4, ![4, 2048, 12, 64]⟩
abbrev S4x12x2048x64 : Shape := ⟨4, ![4, 12, 2048, 64]⟩
abbrev S4x12x2048x2048 : Shape := ⟨4, ![4, 12, 2048, 2048]⟩
abbrev S_ : Shape := ⟨0, ![]⟩
abbrev S2048x2048 : Shape := ⟨2, ![2048, 2048]⟩
abbrev S1x1x2048x2048 : Shape := ⟨4, ![1, 1, 2048, 2048]⟩
abbrev S4x12x2048 : Shape := ⟨3, ![4, 12, 2048]⟩
abbrev S4x12x2048x1 : Shape := ⟨4, ![4, 12, 2048, 1]⟩
abbrev S1x1x768 : Shape := ⟨3, ![1, 1, 768]⟩

abbrev nBuf : Space → Nat
  | .hbm => 63
  | .vmem => 0
  | .smem => 0
  | _ => 0

abbrev bufTy : (tb : Table) → Fin (tcTables nBuf tb) → BufTy
  | .hbm, ⟨0, _⟩ => ⟨S4x2048x768, .f32⟩
  | .hbm, ⟨1, _⟩ => ⟨S768x2304, .f32⟩
  | .hbm, ⟨2, _⟩ => ⟨S2304, .f32⟩
  | .hbm, ⟨3, _⟩ => ⟨S768x768, .f32⟩
  | .hbm, ⟨4, _⟩ => ⟨S768, .f32⟩
  | .hbm, ⟨5, _⟩ => ⟨S4x2048x2304, .f32⟩
  | .hbm, ⟨6, _⟩ => ⟨S1x1x2304, .f32⟩
  | .hbm, ⟨7, _⟩ => ⟨S4x2048x2304, .f32⟩
  | .hbm, ⟨8, _⟩ => ⟨S4x2048x2304, .f32⟩
  | .hbm, ⟨9, _⟩ => ⟨S4x2048x768, .f32⟩
  | .hbm, ⟨10, _⟩ => ⟨S4x2048x768, .f32⟩
  | .hbm, ⟨11, _⟩ => ⟨S4x2048x768, .f32⟩
  | .hbm, ⟨12, _⟩ => ⟨S4x2048x12x64, .f32⟩
  | .hbm, ⟨13, _⟩ => ⟨S4x12x2048x64, .f32⟩
  | .hbm, ⟨14, _⟩ => ⟨S4x2048x12x64, .f32⟩
  | .hbm, ⟨15, _⟩ => ⟨S4x12x2048x64, .f32⟩
  | .hbm, ⟨16, _⟩ => ⟨S4x2048x12x64, .f32⟩
  | .hbm, ⟨17, _⟩ => ⟨S4x12x2048x64, .f32⟩
  | .hbm, ⟨18, _⟩ => ⟨S4x12x2048x2048, .f32⟩
  | .hbm, ⟨19, _⟩ => ⟨S_, .f32⟩
  | .hbm, ⟨20, _⟩ => ⟨S2048x2048, .f32⟩
  | .hbm, ⟨21, _⟩ => ⟨S2048x2048, .i32⟩
  | .hbm, ⟨22, _⟩ => ⟨S_, .i32⟩
  | .hbm, ⟨23, _⟩ => ⟨S2048x2048, .i32⟩
  | .hbm, ⟨24, _⟩ => ⟨S2048x2048, .i32⟩
  | .hbm, ⟨25, _⟩ => ⟨S2048x2048, .i32⟩
  | .hbm, ⟨26, _⟩ => ⟨S2048x2048, .i1⟩
  | .hbm, ⟨27, _⟩ => ⟨S_, .f32⟩
  | .hbm, ⟨28, _⟩ => ⟨S2048x2048, .f32⟩
  | .hbm, ⟨29, _⟩ => ⟨S2048x2048, .f32⟩
  | .hbm, ⟨30, _⟩ => ⟨S1x1x2048x2048, .f32⟩
  | .hbm, ⟨31, _⟩ => ⟨S4x12x2048x2048, .f32⟩
  | .hbm, ⟨32, _⟩ => ⟨S4x12x2048x2048, .f32⟩
  | .hbm, ⟨33, _⟩ => ⟨S_, .f32⟩
  | .hbm, ⟨34, _⟩ => ⟨S2048x2048, .f32⟩
  | .hbm, ⟨35, _⟩ => ⟨S2048x2048, .f32⟩
  | .hbm, ⟨36, _⟩ => ⟨S_, .f32⟩
  | .hbm, ⟨37, _⟩ => ⟨S2048x2048, .f32⟩
  | .hbm, ⟨38, _⟩ => ⟨S2048x2048, .f32⟩
  | .hbm, ⟨39, _⟩ => ⟨S1x1x2048x2048, .f32⟩
  | .hbm, ⟨40, _⟩ => ⟨S4x12x2048x2048, .f32⟩
  | .hbm, ⟨41, _⟩ => ⟨S4x12x2048x2048, .f32⟩
  | .hbm, ⟨42, _⟩ => ⟨S_, .f32⟩
  | .hbm, ⟨43, _⟩ => ⟨S4x12x2048, .f32⟩
  | .hbm, ⟨44, _⟩ => ⟨S_, .f32⟩
  | .hbm, ⟨45, _⟩ => ⟨S4x12x2048, .f32⟩
  | .hbm, ⟨46, _⟩ => ⟨S4x12x2048, .f32⟩
  | .hbm, ⟨47, _⟩ => ⟨S4x12x2048x1, .f32⟩
  | .hbm, ⟨48, _⟩ => ⟨S4x12x2048x2048, .f32⟩
  | .hbm, ⟨49, _⟩ => ⟨S4x12x2048x2048, .f32⟩
  | .hbm, ⟨50, _⟩ => ⟨S4x12x2048x2048, .f32⟩
  | .hbm, ⟨51, _⟩ => ⟨S_, .f32⟩
  | .hbm, ⟨52, _⟩ => ⟨S4x12x2048, .f32⟩
  | .hbm, ⟨53, _⟩ => ⟨S4x12x2048x1, .f32⟩
  | .hbm, ⟨54, _⟩ => ⟨S4x12x2048x2048, .f32⟩
  | .hbm, ⟨55, _⟩ => ⟨S4x12x2048x2048, .f32⟩
  | .hbm, ⟨56, _⟩ => ⟨S4x12x2048x64, .f32⟩
  | .hbm, ⟨57, _⟩ => ⟨S4x2048x12x64, .f32⟩
  | .hbm, ⟨58, _⟩ => ⟨S4x2048x768, .f32⟩
  | .hbm, ⟨59, _⟩ => ⟨S4x2048x768, .f32⟩
  | .hbm, ⟨60, _⟩ => ⟨S1x1x768, .f32⟩
  | .hbm, ⟨61, _⟩ => ⟨S4x2048x768, .f32⟩
  | .hbm, ⟨62, _⟩ => ⟨S4x2048x768, .f32⟩
  | _, _ => ⟨S4x2048x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst : Ref sig .tc := ⟨.hbm, 19, rfl⟩
abbrev main_v14 : Ref sig .tc := ⟨.hbm, 20, rfl⟩
abbrev main_call0_v0 : Ref sig .tc := ⟨.hbm, 21, rfl⟩
abbrev main_call0_c : Ref sig .tc := ⟨.hbm, 22, rfl⟩
abbrev main_call0_v1 : Ref sig .tc := ⟨.hbm, 23, rfl⟩
abbrev main_call0_v2 : Ref sig .tc := ⟨.hbm, 24, rfl⟩
abbrev main_call0_v3 : Ref sig .tc := ⟨.hbm, 25, rfl⟩
abbrev main_call0_v4 : Ref sig .tc := ⟨.hbm, 26, rfl⟩
abbrev main_call0_cst : Ref sig .tc := ⟨.hbm, 27, rfl⟩
abbrev main_call0_v5 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst_0 : Ref sig .tc := ⟨.hbm, 33, rfl⟩
abbrev main_v19 : Ref sig .tc := ⟨.hbm, 34, rfl⟩
abbrev main_v20 : Ref sig .tc := ⟨.hbm, 35, rfl⟩
abbrev main_cst_1 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_cst_2 : Ref sig .tc := ⟨.hbm, 42, rfl⟩
abbrev main_v26 : Ref sig .tc := ⟨.hbm, 43, rfl⟩
abbrev main_cst_3 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_cst_4 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩

abbrev nD : Nat := 1
abbrev τ : Topo := Topo.v7x

variable {F : FTy → Type} [FloatOps F]

class Facts₀ : Prop where
  bcast_S2304_S1x1x2304_2 : S2304.BroadcastsInDim S1x1x2304 (![2] : Fin 1 → Fin S1x1x2304.rank)
  bcast_S1x1x2304_S4x2048x2304_0_1_2 : S1x1x2304.BroadcastsInDim S4x2048x2304 (![0, 1, 2] : Fin 3 → Fin S4x2048x2304.rank)
  slices_S4x2048x2304_S4x2048x768_0_0_0 : S4x2048x2304.Slices ![0, 0, 0] S4x2048x768
  slices_S4x2048x2304_S4x2048x768_0_0_768 : S4x2048x2304.Slices ![0, 0, 768] S4x2048x768
  slices_S4x2048x2304_S4x2048x768_0_0_1536 : S4x2048x2304.Slices ![0, 0, 1536] S4x2048x768
  shapeCasts_S4x2048x768_S4x2048x12x64 : S4x2048x768.ShapeCasts S4x2048x12x64
  transposes_S4x2048x12x64_S4x12x2048x64_0_2_1_3 : S4x2048x12x64.Transposes [0, 2, 1, 3] S4x12x2048x64
  bcast_S_S2048x2048 : S_.BroadcastsInDim S2048x2048 (![] : Fin 0 → Fin S2048x2048.rank)
  bcast_S2048x2048_S1x1x2048x2048_2_3 : S2048x2048.BroadcastsInDim S1x1x2048x2048 (![2, 3] : Fin 2 → Fin S1x1x2048x2048.rank)
  bcast_S1x1x2048x2048_S4x12x2048x2048_0_1_2_3 : S1x1x2048x2048.BroadcastsInDim S4x12x2048x2048 (![0, 1, 2, 3] : Fin 4 → Fin S4x12x2048x2048.rank)
  reducesTo_S4x12x2048x2048_S4x12x2048_d3 : S4x12x2048x2048.ReducesTo [3] S4x12x2048
  h_S_ : 0 < S_.numel
  bcast_S_S4x12x2048 : S_.BroadcastsInDim S4x12x2048 (![] : Fin 0 → Fin S4x12x2048.rank)
  bcast_S4x12x2048_S4x12x2048x1_0_1_2 : S4x12x2048.BroadcastsInDim S4x12x2048x1 (![0, 1, 2] : Fin 3 → Fin S4x12x2048x1.rank)
  bcast_S4x12x2048x1_S4x12x2048x2048_0_1_2_3 : S4x12x2048x1.BroadcastsInDim S4x12x2048x2048 (![0, 1, 2, 3] : Fin 4 → Fin S4x12x2048x2048.rank)
  transposes_S4x12x2048x64_S4x2048x12x64_0_2_1_3 : S4x12x2048x64.Transposes [0, 2, 1, 3] S4x2048x12x64
  shapeCasts_S4x2048x12x64_S4x2048x768 : S4x2048x12x64.ShapeCasts S4x2048x768
  bcast_S768_S1x1x768_2 : S768.BroadcastsInDim S1x1x768 (![2] : Fin 1 → Fin S1x1x768.rank)
  bcast_S1x1x768_S4x2048x768_0_1_2 : S1x1x768.BroadcastsInDim S4x2048x768 (![0, 1, 2] : Fin 3 → Fin S4x2048x768.rank)
  dot_S4x2048x768_S768x2304_S4x2048x2304_2_0_01_1_n_n_wf : DotDims.WF S4x2048x768 S768x2304 S4x2048x2304 [2] [0] [0, 1] [1] [] []
  dot_S4x12x2048x64_S4x12x2048x64_S4x12x2048x2048_3_3_2_2_01_01_wf : DotDims.WF S4x12x2048x64 S4x12x2048x64 S4x12x2048x2048 [3] [3] [2] [2] [0, 1] [0, 1]
  dot_S4x12x2048x2048_S4x12x2048x64_S4x12x2048x64_3_2_2_3_01_01_wf : DotDims.WF S4x12x2048x2048 S4x12x2048x64 S4x12x2048x64 [3] [2] [2] [3] [0, 1] [0, 1]
  dot_S4x2048x768_S768x768_S4x2048x768_2_0_01_1_n_n_wf : DotDims.WF S4x2048x768 S768x768 S4x2048x768 [2] [0] [0, 1] [1] [] []

variable [Facts₀]

def dot_S4x2048x768_S768x2304_S4x2048x2304_2_0_01_1_n_n : DotDims S4x2048x768 S768x2304 S4x2048x2304 where
  lhsContracting := [2]
  rhsContracting := [0]
  lhsNonContracting := [0, 1]
  rhsNonContracting := [1]
  lhsBatch := []
  rhsBatch := []
  wf := dot_S4x2048x768_S768x2304_S4x2048x2304_2_0_01_1_n_n_wf
def dot_S4x12x2048x64_S4x12x2048x64_S4x12x2048x2048_3_3_2_2_01_01 : DotDims S4x12x2048x64 S4x12x2048x64 S4x12x2048x2048 where
  lhsContracting := [3]
  rhsContracting := [3]
  lhsNonContracting := [2]
  rhsNonContracting := [2]
  lhsBatch := [0, 1]
  rhsBatch := [0, 1]
  wf := dot_S4x12x2048x64_S4x12x2048x64_S4x12x2048x2048_3_3_2_2_01_01_wf
def dot_S4x12x2048x2048_S4x12x2048x64_S4x12x2048x64_3_2_2_3_01_01 : DotDims S4x12x2048x2048 S4x12x2048x64 S4x12x2048x64 where
  lhsContracting := [3]
  rhsContracting := [2]
  lhsNonContracting := [2]
  rhsNonContracting := [3]
  lhsBatch := [0, 1]
  rhsBatch := [0, 1]
  wf := dot_S4x12x2048x2048_S4x12x2048x64_S4x12x2048x64_3_2_2_3_01_01_wf
def dot_S4x2048x768_S768x768_S4x2048x768_2_0_01_1_n_n : DotDims S4x2048x768 S768x768 S4x2048x768 where
  lhsContracting := [2]
  rhsContracting := [0]
  lhsNonContracting := [0, 1]
  rhsNonContracting := [1]
  lhsBatch := []
  rhsBatch := []
  wf := dot_S4x2048x768_S768x768_S4x2048x768_2_0_01_1_n_n_wf

class Facts : Prop extends Facts₀ where

variable [Facts]
-- ==== Proof.RunValue.lean ====
/-
  The kernel program's run with its result array named.

  Every weakly fair execution of the program ends, without a fault, with every buffer that is not a kernel's private
  staging memory at the contents the program's three kernel launches and the host operations between them leave, one
  after the other from the launch memory. The argument arrays are among those buffers and end as launched; so is the
  result array, and this module states the run with the result array at those final contents.
-/
import proofs.«113351_j20151986553284_2_alg».proof.Proof.KernelIdealFrame

set_option maxRecDepth 16384

noncomputable section

namespace Cert.KernelIdeal.RunValue

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the result array ends at the last boundary's contents, the arguments as launched. -/
theorem run_named : θ_run defs (onTc (τ := τ) (main (F := F))) ⟨m, fun _ => 0, ρ⟩ (fun r => ∀ c : Dev nD,
      r.2.mem ((c.tc : Thread nD τ).loc main_v13) = W7 m ρ c (Proc.devRef .tc main_v13)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v13 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c)⟩)

end Cert.KernelIdeal.RunValue

end
-- ==== Proof.LibRowSoftmax.lean ====
/-
  General lemmas for kernels that take a softmax along the rows of a matrix and multiply matrices row by column,
  read at an index given by coordinates, on the extended reals. Independent of any program.

  * `expRows s` — every row of `s` minus its maximum, exponentiated — and `normRows e` — every row of `e` over its
    sum — are written with the vector operations a kernel body prints (a lane reduction, the result kept as a column,
    the column broadcast back along the row), with the shape facts and the accumulator facts as arguments, so that a
    printed body is such a term by `rfl`. `expRows_apply` and `normRows_apply` read them at `(p, j)`: the entry's
    distance below the fold of `max` over row `p`, exponentiated; the entry over the `Fin n` sum of row `p`.
  * `matmul_rows_cols_apply` — a product `[a, n] · [n, b]` into the zero accumulator, read at `(p, c)`, is the sum
    over `k : Fin n` of the left factor at `(p, k)` times the right factor at `(k, c)`; the two kept-axis coordinate
    facts of the dimension numbers are the caller's (they are decided on the printed record).
-/
import Idealize.ShloMosaic.PureOps
import Idealize.ShloMosaic.PureOps.Ideal.Laws
import Idealize.ShloMosaic.Lib.ValueIdx
import Idealize.ShloMosaic.Lib.Pipeline.Value

noncomputable section

open scoped BigOperators

namespace Cert.RowSoftmax

open Idealize.ShloMosaic Idealize.ShloMosaic.ValueIdx

section Layout

variable {α : Type} {a n : ℕ}

/-- A vector `[a]` kept as the column `[a, 1]` holds, at `(p, u)`, the vector's entry `p`. -/
theorem column_apply (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    omega)

/-- A column `[a, 1]` broadcast along the rows to `[a, n]` holds, at `(p, c)`, the column's entry `p`. -/
theorem column_broadcast_apply (v : (⟨2, ![a, 1]⟩ : Shape).Idx → α)
    (h : (⟨2, ![a, 1]⟩ : Shape).Broadcasts ⟨2, ![a, n]⟩) (p : Fin a) (c : Fin n) :
    broadcastTo ⟨2, ![a, n]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- Row `p` with the column coordinate `k` put back is the index `(p, k)`. -/
theorem row_lift (h : (⟨2, ![a, n]⟩ : Shape).Reduces [1] (⟨1, ![a]⟩ : Shape)) (p : Fin a)
    (k : Fin ((⟨2, ![a, n]⟩ : Shape).size 1)) : h.lift (ix1 p) k = ix2 p (⟨k.val, k.isLt⟩ : Fin n) := by
  funext c; apply Fin.ext
  fin_cases c <;> rfl

end Layout

section Terms

variable {F : FTy → Type} [FloatOps F] {a n : ℕ}

/-- Every row minus its maximum, exponentiated. -/
def expRows (s : FVec F ⟨2, ![a, n]⟩ .f32)
    (hr : (⟨2, ![a, n]⟩ : Shape).Reduces [1] (⟨1, ![a]⟩ : Shape)) (hφ : FKind.Formats .f32)
    (hacc : (0xFF800000#32 : BitVec 32) = FKind.maximumf.neutral .f32 hφ)
    (hc : (⟨1, ![a]⟩ : Shape).ShapeCasts ⟨2, ![a, 1]⟩) (hb : (⟨2, ![a, 1]⟩ : Shape).Broadcasts ⟨2, ![a, n]⟩) :
    FVec F ⟨2, ![a, n]⟩ .f32 :=
  exp (subf s (broadcastTo ⟨2, ![a, n]⟩
    (shapeCast ⟨2, ![a, 1]⟩ (multiReduction .maximumf [1] ⟨1, ![a]⟩ s 0xFF800000#32 hr hφ hacc) hc) hb))

/-- Every row over its sum. -/
def normRows (e : FVec F ⟨2, ![a, n]⟩ .f32)
    (hr : (⟨2, ![a, n]⟩ : Shape).Reduces [1] (⟨1, ![a]⟩ : Shape)) (hφ : FKind.Formats .f32)
    (hacc : (0x00000000#32 : BitVec 32) = FKind.add.neutral .f32 hφ)
    (hc : (⟨1, ![a]⟩ : Shape).ShapeCasts ⟨2, ![a, 1]⟩) (hb : (⟨2, ![a, 1]⟩ : Shape).Broadcasts ⟨2, ![a, n]⟩) :
    FVec F ⟨2, ![a, n]⟩ .f32 :=
  divf e (broadcastTo ⟨2, ![a, n]⟩
    (shapeCast ⟨2, ![a, 1]⟩ (multiReduction .add [1] ⟨1, ![a]⟩ e 0x00000000#32 hr hφ hacc) hc) hb)

end Terms

variable {a n : ℕ}

/-- Entry `(p, j)` of the exponentials: the exponential of the entry's distance below row `p`'s maximum, the
    maximum a fold of `max` from the accumulator word's value over the row. -/
theorem expRows_apply (s : FVec Ideal ⟨2, ![a, n]⟩ .f32)
    (hr : (⟨2, ![a, n]⟩ : Shape).Reduces [1] (⟨1, ![a]⟩ : Shape)) (hφ : FKind.Formats .f32)
    (hacc : (0xFF800000#32 : BitVec 32) = FKind.maximumf.neutral .f32 hφ)
    (hc : (⟨1, ![a]⟩ : Shape).ShapeCasts ⟨2, ![a, 1]⟩) (hb : (⟨2, ![a, 1]⟩ : Shape).Broadcasts ⟨2, ![a, n]⟩)
    (p : Fin a) (j : Fin n) :
    expRows s hr hφ hacc hc hb (ix2 p j)
      = Ideal.exp (s (ix2 p j)
          - (Finset.univ : Finset (Fin n)).fold max (Ideal.ofBits .f32 0xFF800000#32) (fun j' => s (ix2 p j'))) := by
  unfold expRows
  show Ideal.exp (s (ix2 p j) - broadcastTo ⟨2, ![a, n]⟩ _ hb (ix2 p j)) = _
  rw [column_broadcast_apply, column_apply]
  refine congrArg (fun x => Ideal.exp (s (ix2 p j) - x)) ?_
  exact (Ideal.multiReduction_maximumf_single s _ hr hφ hacc (ix1 p)).trans
    (congrArg (fun f => (Finset.univ : Finset (Fin n)).fold max (Ideal.ofBits .f32 0xFF800000#32) f)
      (funext fun k => congrArg s (row_lift hr p k)))

/-- Entry `(p, j)` of the normalised rows: the entry over the sum of row `p`. -/
theorem normRows_apply (e : FVec Ideal ⟨2, ![a, n]⟩ .f32)
    (hr : (⟨2, ![a, n]⟩ : Shape).Reduces [1] (⟨1, ![a]⟩ : Shape)) (hφ : FKind.Formats .f32)
    (hacc : (0x00000000#32 : BitVec 32) = FKind.add.neutral .f32 hφ)
    (hc : (⟨1, ![a]⟩ : Shape).ShapeCasts ⟨2, ![a, 1]⟩) (hb : (⟨2, ![a, 1]⟩ : Shape).Broadcasts ⟨2, ![a, n]⟩)
    (p : Fin a) (j : Fin n) :
    normRows e hr hφ hacc hc hb (ix2 p j) = Ideal.div (e (ix2 p j)) (∑ j' : Fin n, e (ix2 p j')) := by
  unfold normRows
  rw [divf_apply, column_broadcast_apply, column_apply]
  refine congrArg (Ideal.div (e (ix2 p j))) ?_
  exact (Ideal.multiReduction_add_single e _ hr hφ hacc (ix1 p)).trans
    (Finset.sum_congr rfl fun k _ => congrArg e (row_lift hr p k))

/-- A rows-by-columns product `[a, n] · [n, b]` into the zero accumulator, read at `(p, c)`: the sum over the shared
    axis of row `p` of the left factor against column `c` of the right one. The contracted coordinates follow from
    which axes are contracted; the kept ones (`hl0`, `hr1`) are the caller's. -/
theorem matmul_rows_cols_apply {b : ℕ} (d : DotDims ⟨2, ![a, n]⟩ ⟨2, ![n, b]⟩ ⟨2, ![a, b]⟩)
    (hr : d.contr.rank = 1) (hs : d.contr.size ⟨0, by omega⟩ = n)
    (hlc : d.lhsContracting = [1]) (hrc : d.rhsContracting = [0])
    (hl0 : ∀ (i : (⟨2, ![a, b]⟩ : Shape).Idx) (q : d.contr.Idx), (d.lhsIdx i q 0).val = (i 0).val)
    (hr1 : ∀ (i : (⟨2, ![a, b]⟩ : Shape).Idx) (q : d.contr.Idx), (d.rhsIdx i q 1).val = (i 1).val)
    {φ₁ φ₂ : FTy} (prec : Option ContractPrecision) (lhs : FVec Ideal ⟨2, ![a, n]⟩ φ₁) (rhs : FVec Ideal ⟨2, ![n, b]⟩ φ₂)
    (p : Fin a) (c : Fin b) :
    FloatOps.matmul d prec lhs rhs (constant ⟨2, ![a, b]⟩ .f32 0x00000000#32) (ix2 p c)
      = ∑ k : Fin n, lhs (ix2 p k) * rhs (ix2 k c) := by
  rw [Ideal.matmul_constant_zero_apply, ← Equiv.sum_comp (contrEquiv1 d n hr hs).symm]
  refine Finset.sum_congr rfl fun k _ => ?_
  have hk := contrEquiv1_symm_val d n hr hs k
  have hL : d.lhsIdx (ix2 p c) ((contrEquiv1 d n hr hs).symm k) = ix2 p k := by
    funext ax; apply Fin.ext
    match ax with
    | ⟨0, _⟩ => exact hl0 _ _
    | ⟨1, _⟩ => exact (d.lhsIdx_val_of_single hlc _ _).trans hk
  have hR : d.rhsIdx (ix2 p c) ((contrEquiv1 d n hr hs).symm k) = ix2 k c := by
    funext ax; apply Fin.ext
    match ax with
    | ⟨0, _⟩ => exact (d.rhsIdx_val_of_single hrc _ _).trans hk
    | ⟨1, _⟩ => exact hr1 _ _
  rw [hL, hR]

end Cert.RowSoftmax

end
-- ==== Proof.LibRowBroadcast.lean ====
/-
  A general reading at an index: a one-row array `[1, n]` repeated along the rows to `[a, n]` holds, at `(p, c)`, the
  row's entry `c` — a bias row added to every row of a matrix. Independent of any program.
-/
import Idealize.ShloMosaic.Lib.ValueIdx
import Idealize.ShloMosaic.Lib.Pipeline.Value

noncomputable section

namespace Cert.RowBroadcast

open Idealize.ShloMosaic Idealize.ShloMosaic.ValueIdx

variable {α : Type} {a n : ℕ}

/-- A row `[1, n]` broadcast to `[a, n]` holds, at `(p, c)`, the row's entry `(0, c)`. -/
theorem row_broadcast_apply (v : (⟨2, ![1, n]⟩ : Shape).Idx → α)
    (h : (⟨2, ![1, n]⟩ : Shape).Broadcasts ⟨2, ![a, n]⟩) (p : Fin a) (c : Fin n) :
    broadcastTo ⟨2, ![a, n]⟩ v h (ix2 p c) = v (ix2 (0 : Fin 1) c) := by
  refine broadcastTo_apply v h (ix2 p c) (ix2 (0 : Fin 1) c) fun ax => ?_
  match ax with
  | ⟨0, _⟩ => rfl
  | ⟨1, _⟩ =>
    show c.val = if n = 1 then 0 else c.val
    split
    · have := c.isLt; omega
    · rfl

end Cert.RowBroadcast

end
-- ==== Proof.Linear.lean ====
/-
  The two projection bodies of the kernel read at an index, on the extended reals.

  Both bodies take a 512-row block of tokens, the whole weight matrix and the bias row, and store the block's product
  with the matrix plus the bias, every row the same way. On the extended reals the changes of float format are the
  identity and the product into the zero accumulator is the plain sum over the 768 shared features, so entry `(p, e)`
  of what is stored is  ∑ d, block (p, d) · weight (d, e)  +  bias (0, e).
-/
import proofs.«113351_j20151986553284_2_alg».proof.Proof.Gen.KernelIdeal.Skeleton
import proofs.«113351_j20151986553284_2_alg».proof.Proof.LibRowSoftmax
import proofs.«113351_j20151986553284_2_alg».proof.Proof.LibRowBroadcast

noncomputable section

open scoped BigOperators

namespace Cert.KernelIdeal.Linear

open Cert.KernelIdeal Cert.KernelIdeal.Gen Idealize.ShloMosaic Idealize.ShloMosaic.ValueIdx

/-- The fused projection's record keeps the output's row as the left operand's row, -/
theorem proj_lhs_row (i : S512x2304.Idx) (q : dot_S512x768_S768x2304_S512x2304_1_0_0_1_n_n.contr.Idx) :
    (dot_S512x768_S768x2304_S512x2304_1_0_0_1_n_n.lhsIdx i q 0).val = (i 0).val := by
  unfold DotDims.lhsIdx
  rw [dif_neg (show ¬(0 : Fin S512x768.rank) ∈ dot_S512x768_S768x2304_S512x2304_1_0_0_1_n_n.lhsBatch by decide), dif_pos (show (0 : Fin S512x768.rank) ∈ dot_S512x768_S768x2304_S512x2304_1_0_0_1_n_n.lhsNonContracting by decide)]
  rfl

/-- and the output's column as the right operand's column. -/
theorem proj_rhs_col (i : S512x2304.Idx) (q : dot_S512x768_S768x2304_S512x2304_1_0_0_1_n_n.contr.Idx) :
    (dot_S512x768_S768x2304_S512x2304_1_0_0_1_n_n.rhsIdx i q 1).val = (i 1).val := by
  unfold DotDims.rhsIdx
  rw [dif_neg (show ¬(1 : Fin S768x2304.rank) ∈ dot_S512x768_S768x2304_S512x2304_1_0_0_1_n_n.rhsBatch by decide), dif_pos (show (1 : Fin S768x2304.rank) ∈ dot_S512x768_S768x2304_S512x2304_1_0_0_1_n_n.rhsNonContracting by decide)]
  rfl

/-- Entry `(p, e)` of what the fused projection's body stores. -/
theorem proj_apply (x0 : Vec Ideal S512x768 .f32) (x1 : Vec Ideal S768x2304 .f32) (x2 : Vec Ideal S1x2304 .f32)
    (p : Fin 512) (e : Fin 2304) :
    k0_pay1 x0 x1 x2 (ix2 p e) = (∑ d : Fin 768, x0 (ix2 p d) * x1 (ix2 d e)) + x2 (ix2 (0 : Fin 1) e) := by
  unfold k0_pay1
  simp only [shapeCast_self]
  refine congrArg₂ (fun (u w : EReal) => u + w) ?_ ?_
  · exact Cert.RowSoftmax.matmul_rows_cols_apply dot_S512x768_S768x2304_S512x2304_1_0_0_1_n_n rfl rfl rfl rfl
      proj_lhs_row proj_rhs_col none _ _ p e
  · exact Cert.RowBroadcast.row_broadcast_apply x2 broadcasts_S1x2304_S512x2304 p e

/-- The output projection's record keeps the output's row as the left operand's row, -/
theorem out_lhs_row (i : S512x768.Idx) (q : dot_S512x768_S768x768_S512x768_1_0_0_1_n_n.contr.Idx) :
    (dot_S512x768_S768x768_S512x768_1_0_0_1_n_n.lhsIdx i q 0).val = (i 0).val := by
  unfold DotDims.lhsIdx
  rw [dif_neg (show ¬(0 : Fin S512x768.rank) ∈ dot_S512x768_S768x768_S512x768_1_0_0_1_n_n.lhsBatch by decide), dif_pos (show (0 : Fin S512x768.rank) ∈ dot_S512x768_S768x768_S512x768_1_0_0_1_n_n.lhsNonContracting by decide)]
  rfl

/-- and the output's column as the right operand's column. -/
theorem out_rhs_col (i : S512x768.Idx) (q : dot_S512x768_S768x768_S512x768_1_0_0_1_n_n.contr.Idx) :
    (dot_S512x768_S768x768_S512x768_1_0_0_1_n_n.rhsIdx i q 1).val = (i 1).val := by
  unfold DotDims.rhsIdx
  rw [dif_neg (show ¬(1 : Fin S768x768.rank) ∈ dot_S512x768_S768x768_S512x768_1_0_0_1_n_n.rhsBatch by decide), dif_pos (show (1 : Fin S768x768.rank) ∈ dot_S512x768_S768x768_S512x768_1_0_0_1_n_n.rhsNonContracting by decide)]
  rfl

/-- Entry `(p, e)` of what the output projection's body stores. -/
theorem outproj_apply (x0 : Vec Ideal S512x768 .bf16) (x1 : Vec Ideal S768x768 .f32) (x2 : Vec Ideal S1x768 .f32)
    (p : Fin 512) (e : Fin 768) :
    k2_pay1 x0 x1 x2 (ix2 p e) = (∑ d : Fin 768, x0 (ix2 p d) * x1 (ix2 d e)) + x2 (ix2 (0 : Fin 1) e) := by
  unfold k2_pay1
  simp only [shapeCast_self]
  refine congrArg₂ (fun (u w : EReal) => u + w) ?_ ?_
  · exact Cert.RowSoftmax.matmul_rows_cols_apply dot_S512x768_S768x768_S512x768_1_0_0_1_n_n rfl rfl rfl rfl
      out_lhs_row out_rhs_col none _ _ p e
  · exact Cert.RowBroadcast.row_broadcast_apply x2 broadcasts_S1x768_S512x768 p e

end Cert.KernelIdeal.Linear

end
-- ==== Proof.Region0.lean ====
/-
  Region 0 of the kernel program: the fused projection, block by block, as one array.
-/
import proofs.«113351_j20151986553284_2_alg».proof.Proof.KernelIdealFrame
import proofs.«113351_j20151986553284_2_alg».proof.Proof.Linear
import Idealize.ShloMosaic.Lib.Pipeline.Value

set_option maxRecDepth 16384

noncomputable section

open scoped BigOperators

namespace Cert.KernelIdeal.Region0

open Cert.KernelIdeal Cert.KernelIdeal.Gen Cert.KernelIdeal.GenP Idealize.ShloMosaic Idealize.ShloMosaic.ValueIdx Idealize.ShloMosaic.TcCoe
open Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- Every token row times the weight matrix, plus the bias row. -/
def proj (A : S8192x768.Idx → EReal) (W : S768x2304.Idx → EReal) (B : S1x2304.Idx → EReal) : S8192x2304.Idx → EReal :=
  fun i => (∑ d : Fin 768, A (ix2 (i 0) d) * W (ix2 d (i 1))) + B (ix2 (0 : Fin 1) (i 1))

theorem idx_facts : ∀ t : Fin cfg0.N, win0_0.index t (0 : Fin 2) = win0_3.index t (0 : Fin 2)
    ∧ win0_0.index t (1 : Fin 2) = 0 ∧ win0_1.index t (0 : Fin 2) = 0 ∧ win0_1.index t (1 : Fin 2) = 0
    ∧ win0_2.index t (0 : Fin 2) = 0 ∧ win0_2.index t (1 : Fin 2) = 0
    ∧ win0_3.index t (1 : Fin 2) = 0 ∧ win0_3.index t (0 : Fin 2) ≤ 15 :=
  (by decide +kernel : ∀ t : Fin grid0.N, _)

theorem idx_onto : ∀ (q0 : Fin 16), ∃ t : Fin cfg0.N, win0_3.index t = ![q0.val, 0] :=
  (by decide +kernel : ∀ (q0 : Fin 16), ∃ t : Fin grid0.N, win0_3.index t = ![q0.val, 0])

theorem flushed_eq (c : Dev nD) (t : Fin cfg0.N) :
    (dat0 V c).flushed 3 t = ((cfg0.win 3).blk t).view.read (Elt Ideal) (proj (V c main_v0) (V c main_arg1) (V c main_v1)) := by
  show (cfg0.win 3).cut (grid0.coords t) ((dat0 V c).after 3 t) = _
  rw [after0_3]
  unfold out0_3
  rw [View.canon_unit_zero hz]
  simp only [View.ld_unit_zero (S := S512x768) hz, View.ld_unit_zero (S := S768x2304) hz, View.ld_unit_zero (S := S1x2304) hz]
  funext j
  show k0_pay1 (iblk0 V c 0 t) (iblk0 V c 1 t) (iblk0 V c 2 t) j
      = proj (V c main_v0) (V c main_arg1) (V c main_v1) (((cfg0.win 3).blk t).view.emb j)
  obtain ⟨e0, e1, e2, e3, e4, e5, e6, e7⟩ := idx_facts t
  refine (congrArg (k0_pay1 (iblk0 V c 0 t) (iblk0 V c 1 t) (iblk0 V c 2 t)) (eq_ix2 j)).trans ?_
  refine (Linear.proj_apply (iblk0 V c 0 t) (iblk0 V c 1 t) (iblk0 V c 2 t) (j 0) (j 1)).trans ?_
  have h0 : ∀ d : Fin 768, iblk0 V c 0 t (ix2 (j 0) d)
      = V c main_v0 (ix2 ((((cfg0.win 3).blk t).view.emb j) 0) d) := fun d => by
    show V c main_v0 (((cfg0.win 0).blk t).view.emb (ix2 (j 0) d)) = _
    refine congrArg (V c main_v0) (funext fun a => Fin.ext ?_)
    match a with
    | ⟨0, _⟩ => show win0_0.index t (0 : Fin 2) * 512 + 1 * (j 0).val = win0_3.index t (0 : Fin 2) * 512 + 1 * (j 0).val; rw [e0]
    | ⟨1, _⟩ => show win0_0.index t (1 : Fin 2) * 768 + 1 * d.val = d.val; rw [e1]; omega
  have h1 : ∀ d : Fin 768, iblk0 V c 1 t (ix2 d (j 1))
      = V c main_arg1 (ix2 d ((((cfg0.win 3).blk t).view.emb j) 1)) := fun d => by
    show V c main_arg1 (((cfg0.win 1).blk t).view.emb (ix2 d (j 1))) = _
    refine congrArg (V c main_arg1) (funext fun a => Fin.ext ?_)
    match a with
    | ⟨0, _⟩ => show win0_1.index t (0 : Fin 2) * 768 + 1 * d.val = d.val; rw [e2]; omega
    | ⟨1, _⟩ => show win0_1.index t (1 : Fin 2) * 2304 + 1 * (j 1).val = win0_3.index t (1 : Fin 2) * 2304 + 1 * (j 1).val; rw [e3, e6]
  have h2 : iblk0 V c 2 t (ix2 (0 : Fin 1) (j 1))
      = V c main_v1 (ix2 (0 : Fin 1) ((((cfg0.win 3).blk t).view.emb j) 1)) := by
    show V c main_v1 (((cfg0.win 2).blk t).view.emb (ix2 (0 : Fin 1) (j 1))) = _
    refine congrArg (V c main_v1) (funext fun a => Fin.ext ?_)
    match a with
    | ⟨0, _⟩ => show win0_2.index t (0 : Fin 2) * 1 + 1 * 0 = 0; rw [e4]
    | ⟨1, _⟩ => show win0_2.index t (1 : Fin 2) * 2304 + 1 * (j 1).val = win0_3.index t (1 : Fin 2) * 2304 + 1 * (j 1).val; rw [e5, e6]
  unfold proj
  rw [h2]
  exact congrArg (fun u : EReal => u + _) (Finset.sum_congr rfl fun d _ => by rw [h0 d, h1 d])

/-- An index of the array is in point `t`'s block iff each coordinate is in the block's range on its axis. -/
theorem mem_blk (t : Fin cfg0.N) (i : S8192x2304.Idx) :
    i ∈ ((cfg0.win 3).blk t).view.set ↔ ∀ a : Fin 2, win0_3.index t a * S512x2304.size a ≤ (i a).val
      ∧ (i a).val < win0_3.index t a * S512x2304.size a + S512x2304.size a := by
  show i ∈ ((View.whole main_v2).slice (win0_3.rect t)).set ↔ _
  rw [View.set_slice_whole, Rect.mem_set_unit]
  exact Iff.rfl

/-- The sixteen blocks of 512 rows fill the array: row `r` is in block `r / 512`. -/
theorem cover (i : S8192x2304.Idx) :
    ∃ t : Fin cfg0.N, (cfg0.win 3).flush t = true ∧ i ∈ ((cfg0.win 3).blk t).view.set := by
  have hi0 : (i 0).val < 8192 := (i 0).isLt
  have hi1 : (i 1).val < 2304 := (i 1).isLt
  obtain ⟨t, ht⟩ := idx_onto ⟨(i 0).val / 512, by omega⟩
  have q0 : win0_3.index t (0 : Fin 2) = (i 0).val / 512 := congrFun ht 0
  have q1 : win0_3.index t (1 : Fin 2) = 0 := congrFun ht 1
  refine ⟨t, flush0_3 t, ?_⟩
  rw [mem_blk]
  intro a
  match a with
  | ⟨0, _⟩ => show win0_3.index t (0 : Fin 2) * 512 ≤ (i 0).val ∧ (i 0).val < win0_3.index t (0 : Fin 2) * 512 + 512; omega
  | ⟨1, _⟩ => show win0_3.index t (1 : Fin 2) * 2304 ≤ (i 1).val ∧ (i 1).val < win0_3.index t (1 : Fin 2) * 2304 + 2304; omega

/-- The array the region leaves: the projection of the array it found, whole. -/
theorem final (c : Dev nD) :
    (dat0 V c).arrAt 3 cfg0.N = proj (V c main_v0) (V c main_arg1) (V c main_v1) :=
  (dat0 V c).arrAt_eq_of_cover 3 _ (fun t _ => flushed_eq V c t) cover

end Cert.KernelIdeal.Region0

end
-- ==== Proof.Head.lean ====
/-
  One attention head of the kernel's body as ONE function of the mask bits and the head's three slices, and the
  twelve heads of the body as twelve uses of it.

  The body treats the twelve heads alike: from the 64 columns of the query block, the key block and the value block
  that belong to the head it forms the 256 × 2048 scores (the query rows against all key rows), replaces the scores
  of the keys after the query by the fill word (a select on the mask bits), takes the softmax of every row over all
  2048 keys, and multiplies the 256 × 2048 weights by the 2048 × 64 values. `head` is that chain of operations; the
  twelve results are written side by side into the 768 columns of the output block.
-/
import proofs.«113351_j20151986553284_2_alg».proof.Proof.KernelIdealFrame

set_option maxRecDepth 16384

noncomputable section

namespace Cert.KernelIdeal.Heads

open Cert.KernelIdeal Cert.KernelIdeal.Gen Cert.KernelIdeal.GenP Idealize.ShloMosaic Idealize.SL.Sem

variable {F : FTy → Type} [FloatOps F]

/-- One head: scores, fill by the mask, row softmax, weights times values. -/
def head (msk : IVec S256x2048 1) (v6 : Vec F S1x256x64 .bf16) (v8 : Vec F S1x2048x64 .bf16) (v10 : Vec F S1x2048x64 .bf16) :
    FVec F S1x256x64 .bf16 :=
  have v7 : FVec F S256x64 .bf16 := shapeCast S256x64 v6 shapeCasts_S1x256x64_S256x64
  have v9 : FVec F S2048x64 .bf16 := shapeCast S2048x64 v8 shapeCasts_S1x2048x64_S2048x64
  have v11 : FVec F S2048x64 .bf16 := shapeCast S2048x64 v10 shapeCasts_S1x2048x64_S2048x64
  have cst : FVec F S256x2048 .f32 := constant S256x2048 .f32 0x00000000#32
  have v12 : FVec F S256x2048 .f32 := matmul dot_S256x64_S2048x64_S256x2048_1_1_0_0_n_n none v7 v9 cst
  have cst_8 : F .f32 := Scalar.ofBits .f32 0x3089705F#32
  have v13 : FVec F S256x2048 .f32 := broadcast S256x2048 cst_8
  have v14 : FVec F S256x2048 .f32 := select msk v12 v13
  have v15 : FVec F S256 .f32 := multiReduction .maximumf [1] S256 v14 0xFF800000#32 reduces_S256x2048_S256 (.inl rfl) rfl
  have v16 : FVec F S256x1 .f32 := shapeCast S256x1 v15 shapeCasts_S256_S256x1
  have v17 : FVec F S256x2048 .f32 := broadcastTo S256x2048 v16 broadcasts_S256x1_S256x2048
  have v18 : FVec F S256x2048 .f32 := subf v14 v17
  have v19 : FVec F S256x2048 .f32 := exp v18
  have v20 : FVec F S256 .f32 := multiReduction .add [1] S256 v19 0x00000000#32 reduces_S256x2048_S256 (.inl rfl) rfl
  have v21 : FVec F S256x1 .f32 := shapeCast S256x1 v20 shapeCasts_S256_S256x1
  have v22 : FVec F S256x2048 .f32 := broadcastTo S256x2048 v21 broadcasts_S256x1_S256x2048
  have v23 : FVec F S256x2048 .f32 := divf v19 v22
  have v24 : FVec F S256x2048 .bf16 := truncf .bf16 v23 bitsLt_bf16_f32
  have cst_11 : FVec F S256x64 .f32 := constant S256x64 .f32 0x00000000#32
  have v25 : FVec F S256x64 .f32 := matmul dot_S256x2048_S2048x64_S256x64_1_0_0_1_n_n none v24 v11 cst_11
  have v26 : FVec F S256x64 .bf16 := truncf .bf16 v25 bitsLt_bf16_f32
  have v29 : FVec F S1x256x64 .bf16 := shapeCast S1x256x64 v26 shapeCasts_S256x64_S1x256x64
  v29

/-- Head 0 of the body is `head` on columns 0–63. -/
theorem piece0 (i : grid1.Coords) (x0 : Vec F S1x256x768 .bf16) (x1 : Vec F S1x2048x768 .bf16) (x2 : Vec F S1x2048x768 .bf16) :
    k1_pay3 i (View.ld x0 r1_0) (View.ld x1 r1_1) (View.ld x2 r1_1)
      = head (k1_pay2 i) (View.ld x0 r1_0) (View.ld x1 r1_1) (View.ld x2 r1_1) := rfl

/-- Head 1 of the body is `head` on columns 64–127. -/
theorem piece1 (i : grid1.Coords) (x0 : Vec F S1x256x768 .bf16) (x1 : Vec F S1x2048x768 .bf16) (x2 : Vec F S1x2048x768 .bf16) :
    k1_pay5 (k1_pay2 i) (k1_pay4 (View.ld x0 r1_2)) (View.ld x1 r1_3) (View.ld x2 r1_3)
      = head (k1_pay2 i) (View.ld x0 r1_2) (View.ld x1 r1_3) (View.ld x2 r1_3) := rfl

/-- Head 2 of the body is `head` on columns 128–191. -/
theorem piece2 (i : grid1.Coords) (x0 : Vec F S1x256x768 .bf16) (x1 : Vec F S1x2048x768 .bf16) (x2 : Vec F S1x2048x768 .bf16) :
    k1_pay8 (k1_pay6 (View.ld x2 r1_5)) (k1_pay7 (k1_pay2 i) (View.ld x0 r1_4) (View.ld x1 r1_5))
      = head (k1_pay2 i) (View.ld x0 r1_4) (View.ld x1 r1_5) (View.ld x2 r1_5) := rfl

/-- Head 3 of the body is `head` on columns 192–255. -/
theorem piece3 (i : grid1.Coords) (x0 : Vec F S1x256x768 .bf16) (x1 : Vec F S1x2048x768 .bf16) (x2 : Vec F S1x2048x768 .bf16) :
    k1_pay9 (k1_pay2 i) (View.ld x0 r1_6) (View.ld x1 r1_7) (View.ld x2 r1_7)
      = head (k1_pay2 i) (View.ld x0 r1_6) (View.ld x1 r1_7) (View.ld x2 r1_7) := rfl

/-- Head 4 of the body is `head` on columns 256–319. -/
theorem piece4 (i : grid1.Coords) (x0 : Vec F S1x256x768 .bf16) (x1 : Vec F S1x2048x768 .bf16) (x2 : Vec F S1x2048x768 .bf16) :
    k1_pay10 (k1_pay2 i) (View.ld x0 r1_8) (View.ld x1 r1_9) (View.ld x2 r1_9)
      = head (k1_pay2 i) (View.ld x0 r1_8) (View.ld x1 r1_9) (View.ld x2 r1_9) := rfl

/-- Head 5 of the body is `head` on columns 320–383. -/
theorem piece5 (i : grid1.Coords) (x0 : Vec F S1x256x768 .bf16) (x1 : Vec F S1x2048x768 .bf16) (x2 : Vec F S1x2048x768 .bf16) :
    k1_pay13 (k1_pay11 (View.ld x2 r1_11)) (k1_pay12 (k1_pay2 i) (View.ld x0 r1_10) (View.ld x1 r1_11))
      = head (k1_pay2 i) (View.ld x0 r1_10) (View.ld x1 r1_11) (View.ld x2 r1_11) := rfl

/-- Head 6 of the body is `head` on columns 384–447. -/
theorem piece6 (i : grid1.Coords) (x0 : Vec F S1x256x768 .bf16) (x1 : Vec F S1x2048x768 .bf16) (x2 : Vec F S1x2048x768 .bf16) :
    k1_pay15 (k1_pay14 (k1_pay2 i) (View.ld x0 r1_12) (View.ld x1 r1_13) (View.ld x2 r1_13))
      = head (k1_pay2 i) (View.ld x0 r1_12) (View.ld x1 r1_13) (View.ld x2 r1_13) := rfl

/-- Head 7 of the body is `head` on columns 448–511. -/
theorem piece7 (i : grid1.Coords) (x0 : Vec F S1x256x768 .bf16) (x1 : Vec F S1x2048x768 .bf16) (x2 : Vec F S1x2048x768 .bf16) :
    k1_pay16 (k1_pay2 i) (View.ld x0 r1_14) (View.ld x1 r1_15) (View.ld x2 r1_15)
      = head (k1_pay2 i) (View.ld x0 r1_14) (View.ld x1 r1_15) (View.ld x2 r1_15) := rfl

/-- Head 8 of the body is `head` on columns 512–575. -/
theorem piece8 (i : grid1.Coords) (x0 : Vec F S1x256x768 .bf16) (x1 : Vec F S1x2048x768 .bf16) (x2 : Vec F S1x2048x768 .bf16) :
    k1_pay20 (k1_pay2 i) (k1_pay17 (View.ld x0 r1_16)) (k1_pay18 (View.ld x1 r1_17)) (k1_pay19 (View.ld x2 r1_17))
      = head (k1_pay2 i) (View.ld x0 r1_16) (View.ld x1 r1_17) (View.ld x2 r1_17) := rfl

/-- Head 9 of the body is `head` on columns 576–639. -/
theorem piece9 (i : grid1.Coords) (x0 : Vec F S1x256x768 .bf16) (x1 : Vec F S1x2048x768 .bf16) (x2 : Vec F S1x2048x768 .bf16) :
    k1_pay23 (k1_pay21 (View.ld x2 r1_19)) (k1_pay22 (k1_pay2 i) (View.ld x0 r1_18) (View.ld x1 r1_19)) (constant S256x64 .f32 0x00000000#32)
      = head (k1_pay2 i) (View.ld x0 r1_18) (View.ld x1 r1_19) (View.ld x2 r1_19) := rfl

/-- Head 10 of the body is `head` on columns 640–703. -/
theorem piece10 (i : grid1.Coords) (x0 : Vec F S1x256x768 .bf16) (x1 : Vec F S1x2048x768 .bf16) (x2 : Vec F S1x2048x768 .bf16) :
    k1_pay24 (k1_pay2 i) (View.ld x0 r1_20) (View.ld x1 r1_21) (View.ld x2 r1_21)
      = head (k1_pay2 i) (View.ld x0 r1_20) (View.ld x1 r1_21) (View.ld x2 r1_21) := rfl

/-- Head 11 of the body is `head` on columns 704–767. -/
theorem piece11 (i : grid1.Coords) (x0 : Vec F S1x256x768 .bf16) (x1 : Vec F S1x2048x768 .bf16) (x2 : Vec F S1x2048x768 .bf16) :
    k1_pay1 (k1_pay2 i) (k1_pay25 (View.ld x0 r1_22)) (View.ld x1 r1_23) (View.ld x2 r1_23)
      = head (k1_pay2 i) (View.ld x0 r1_22) (View.ld x1 r1_23) (View.ld x2 r1_23) := rfl

end Cert.KernelIdeal.Heads

end
-- ==== Proof.Spec.lean ====
/-
  What the attention block computes, as functions on the extended reals, index by index. No program is mentioned here.

  The block takes tokens x[b, s, :] (4 sequences of 2048 tokens, 768 features), projects each token to a query, a key and
  a value (one fused product with a 768 × 2304 matrix plus a bias; columns 0–767 are the query, 768–1535 the key,
  1536–2303 the value), and splits the 768 features into 12 heads of 64. For head h the logit of query token i
  against key token j is the inner product of the two 64-vectors when j ≤ i, and a fixed small word otherwise (the
  positions after the query are filled, not removed: they stay in the row's maximum and in its sum). A row of logits
  becomes weights by the usual softmax — the exponential of the distance below the row's maximum, over the row's sum —
  and the head's output for token i is the weighted sum of the value vectors. The heads' outputs are laid side by side
  again into 768 features and projected once more (a 768 × 768 matrix plus a bias).
-/
import Idealize.ShloMosaic.PureOps.Ideal
import Idealize.ShloMosaic.Lib.ValueIdx

noncomputable section

open scoped BigOperators

namespace Cert.Attn

open Idealize.ShloMosaic Idealize.ShloMosaic.ValueIdx

/-- The word that fills the logits of the positions after the query (the f32 nearest to 1e-9). -/
def fill : EReal := Ideal.ofBits .f32 0x3089705F#32

/-- The logit of one query row against key `j`: the inner product of the query's and the key's 64 features when key
    `j` is not after the query's position `r`, the fill word otherwise. -/
def logitRow (qr : Fin 64 → EReal) (kk : Fin 2048 → Fin 64 → EReal) (r : ℕ) (j : Fin 2048) : EReal :=
  if j.val ≤ r then ∑ d : Fin 64, qr d * kk j d else fill

/-- The unnormalised softmax weight of key `j`: the exponential of the logit's distance below the row's maximum, the
    maximum taken over all 2048 keys, filled ones included, as a fold of `max` from minus infinity. -/
def weightRow (qr : Fin 64 → EReal) (kk : Fin 2048 → Fin 64 → EReal) (r : ℕ) (j : Fin 2048) : EReal :=
  Ideal.exp (logitRow qr kk r j
    - (Finset.univ : Finset (Fin 2048)).fold max (Ideal.ofBits .f32 0xFF800000#32) (fun j' => logitRow qr kk r j'))

/-- One entry of a head's output for the query at position `r`: the values `vv j` weighted by the normalised
    softmax weights of the row. -/
def attnEntry (qr : Fin 64 → EReal) (kk : Fin 2048 → Fin 64 → EReal) (vv : Fin 2048 → EReal) (r : ℕ) : EReal :=
  ∑ j : Fin 2048, Ideal.div (weightRow qr kk r j) (∑ j' : Fin 2048, weightRow qr kk r j') * vv j

/-- Feature `d` of head `h` among the 768 features. -/
def col (h : Fin 12) (d : Fin 64) : Fin 768 := ⟨h.val * 64 + d.val, by have := h.isLt; have := d.isLt; omega⟩

/-- The head a feature belongs to. -/
def headOf (e : Fin 768) : Fin 12 := ⟨e.val / 64, by have := e.isLt; omega⟩

/-- The heads' outputs side by side: feature `e` of token `(b, s)`, from queries, keys and values given token by
    token. -/
def ctx (Q K V : Fin 4 → Fin 2048 → Fin 768 → EReal) (b : Fin 4) (s : Fin 2048) (e : Fin 768) : EReal :=
  attnEntry (fun d => Q b s (col (headOf e) d)) (fun j d => K b j (col (headOf e) d)) (fun j => V b j e) s.val

/-- A token's feature row times a matrix, plus a bias: column `e` of the product. -/
def linear {n k : ℕ} (row : Fin k → EReal) (W : (⟨2, ![k, n]⟩ : Shape).Idx → EReal) (bias : (⟨1, ![n]⟩ : Shape).Idx → EReal)
    (e : Fin n) : EReal :=
  (∑ d : Fin k, row d * W (ix2 d e)) + bias (ix1 e)

variable (x : (⟨3, ![4, 2048, 768]⟩ : Shape).Idx → EReal) (wa : (⟨2, ![768, 2304]⟩ : Shape).Idx → EReal)
  (ba : (⟨1, ![2304]⟩ : Shape).Idx → EReal) (wp : (⟨2, ![768, 768]⟩ : Shape).Idx → EReal)
  (bp : (⟨1, ![768]⟩ : Shape).Idx → EReal)

/-- Column `e` (of 2304) of token `(b, s)`'s fused projection. -/
def qkv (b : Fin 4) (s : Fin 2048) (e : Fin 2304) : EReal := linear (fun d => x (ix3 b s d)) wa ba e

/-- The query, key and value features of a token: the three thirds of the fused projection. -/
def qOf (b : Fin 4) (s : Fin 2048) (e : Fin 768) : EReal := qkv x wa ba b s ⟨e.val, by have := e.isLt; omega⟩
def kOf (b : Fin 4) (s : Fin 2048) (e : Fin 768) : EReal := qkv x wa ba b s ⟨768 + e.val, by have := e.isLt; omega⟩
def vOf (b : Fin 4) (s : Fin 2048) (e : Fin 768) : EReal := qkv x wa ba b s ⟨1536 + e.val, by have := e.isLt; omega⟩

/-- The block's result, index by index. -/
def out : (⟨3, ![4, 2048, 768]⟩ : Shape).Idx → EReal := fun i =>
  linear (fun d => ctx (qOf x wa ba) (kOf x wa ba) (vOf x wa ba) (i 0) (i 1) d) wp bp (i 2)

end Cert.Attn

end
-- ==== Proof.LibIndexReads.lean ====
/-
  Three general readings at an index, at the ideal values or at any values.

  * a matrix product into a zero accumulator whose dimension numbers contract ONE axis of extent `n`
    is, at an output index, the sum over `k : Fin n` of the left operand at `L k` times the right at `R k`,
    for whatever index maps `L`, `R` the caller shows the dimension numbers to induce;
  * an `[a, b]` array viewed as `[a, b, 1]` (a reduction's kept last axis), read at `(p, q, u)`, is entry `(p, q)`;
  * an `[a, b, 1]` array broadcast to `[a, b, c]`, read at `(p, q, r)`, is entry `(p, q, 0)`.
-/
import Idealize.ShloMosaic.PureOps.Ideal.Laws
import Idealize.ShloMosaic.Lib.ValueIdx
import Idealize.ShloMosaic.Lib.Pipeline.Value

noncomputable section

namespace Cert.IndexReads

open Idealize.ShloMosaic Idealize.ShloMosaic.ValueIdx

/-- A matrix product into the zero accumulator, contracting one axis of extent `n`, read at an output
    index `j`: the sum over that axis of the operands' products, the operands read where the dimension
    numbers say (`hL`, `hR`). -/
theorem matmul_zero_single {sl sr so : Shape} {φ₁ φ₂ : FTy} (d : DotDims sl sr so) (n : Nat) (hr : d.contr.rank = 1)
    (hs : d.contr.size ⟨0, by omega⟩ = n) (prec : Option ContractPrecision)
    (lhs : FVec Ideal sl φ₁) (rhs : FVec Ideal sr φ₂) (j : so.Idx) (L : Fin n → sl.Idx) (R : Fin n → sr.Idx)
    (hL : ∀ k, d.lhsIdx j ((contrEquiv1 d n hr hs).symm k) = L k)
    (hR : ∀ k, d.rhsIdx j ((contrEquiv1 d n hr hs).symm k) = R k) :
    FloatOps.matmul d prec lhs rhs (constant so .f32 0x00000000#32) j = ∑ k : Fin n, lhs (L k) * rhs (R k) := by
  rw [Ideal.matmul_constant_zero_apply, ← Equiv.sum_comp (contrEquiv1 d n hr hs).symm]
  exact Finset.sum_congr rfl fun k _ => by rw [hL k, hR k]

variable {α : Type}

/-- An `[a, b]` array viewed `[a, b, 1]`, at `(p, q, u)`, is entry `(p, q)`: the two indices have one row-major position. -/
theorem keepLast_apply {a b : ℕ} (v : (⟨2, ![a, b]⟩ : Shape).Idx → α)
    (h : (⟨2, ![a, b]⟩ : Shape).ShapeCasts ⟨3, ![a, b, 1]⟩) (p : Fin a) (q : Fin b) (u : Fin 1) :
    shapeCast ⟨3, ![a, b, 1]⟩ v h (ix3 p q u) = v (ix2 p q) := by
  refine shapeCast_apply v h (ix3 p q u) (ix2 p q) ?_
  rw [Shape.rowMajor_val_two, Shape.rowMajor_val_three]
  show p.val * b + q.val = (p.val * b + q.val) * 1 + u.val
  have := u.isLt
  omega

/-- An `[a, b, 1]` array broadcast to `[a, b, c]`, at `(p, q, r)`, is entry `(p, q, 0)`. -/
theorem spreadLast_apply {a b c : ℕ} (v : (⟨3, ![a, b, 1]⟩ : Shape).Idx → α)
    (h : (⟨3, ![a, b, 1]⟩ : Shape).Broadcasts ⟨3, ![a, b, c]⟩) (p : Fin a) (q : Fin b) (r : Fin c) :
    broadcastTo ⟨3, ![a, b, c]⟩ v h (ix3 p q r) = v (ix3 p q 0) := by
  refine broadcastTo_apply v h (ix3 p q r) (ix3 p q 0) fun i => ?_
  match i with
  | ⟨0, _⟩ =>
    show p.val = if a = 1 then 0 else p.val
    split_ifs with h1
    · have := p.isLt; omega
    · rfl
  | ⟨1, _⟩ =>
    show q.val = if b = 1 then 0 else q.val
    split_ifs with h1
    · have := q.isLt; omega
    · rfl
  | ⟨2, _⟩ => rfl

end Cert.IndexReads

end
-- ==== Proof.HeadValue.lean ====
/-
  One attention head of the kernel's body, read at an index.

  The mask bits of the block at grid point i compare the key's position j with the query's position, the block's
  first row (i 1) * 256 plus the row p within the block: both are far below 2^31, so the 32-bit words do not wrap and
  the signed comparison of the words is the comparison of the numbers (`mask_apply`).

  A head is a chain of matrix operations: the 256 × 2048 scores (query rows against all key rows, a sum over the 64
  features), the scores after the query's position replaced by the fill word, the softmax of every row over all 2048
  keys, and the weights times the 2048 × 64 values. Read at (0, p, d), each link is the corresponding link of the
  specification's `attnEntry` for the query at position (i 1) * 256 + p: the logits are `logitRow`, the exponentials
  `weightRow`, and the product with the values the weighted sum (`head_apply`). Format changes are the identity on the
  extended reals, and the unit leading axis of a block only renames indices.
-/
import proofs.«113351_j20151986553284_2_alg».proof.Proof.Head
import proofs.«113351_j20151986553284_2_alg».proof.Proof.Spec
import proofs.«113351_j20151986553284_2_alg».proof.Proof.LibRowSoftmax
import proofs.«113351_j20151986553284_2_alg».proof.Proof.LibIndexReads
noncomputable section
namespace Cert.KernelIdeal.HeadValue
open Cert.KernelIdeal Cert.KernelIdeal.Gen Cert.KernelIdeal.Heads Idealize.ShloMosaic Idealize.ShloMosaic.ValueIdx

/-! ## The mask bits -/

/-- A number below 2^31 is the signed value of its 32-bit word. -/
theorem toInt_ofNat_small (a : ℕ) (h : a < 2 ^ 31) : (BitVec.ofNat 32 a).toInt = (a : ℤ) := by
  have h1 : (BitVec.ofNat 32 a).toNat = a := by
    rw [BitVec.toNat_ofNat]; exact Nat.mod_eq_of_lt (by omega)
  rw [BitVec.toInt_eq_toNat_of_lt (by rw [h1]; omega), h1]

/-- The signed comparison of the words of two numbers below 2^31 is the comparison of the numbers. -/
theorem sle_ofNat_small (a b : ℕ) (ha : a < 2 ^ 31) (hb : b < 2 ^ 31) :
    IntOp.cmpi .sle (BitVec.ofNat 32 a) (BitVec.ofNat 32 b) = if a ≤ b then 1#1 else 0#1 := by
  show BitVec.ofBool ((BitVec.ofNat 32 a).sle (BitVec.ofNat 32 b)) = _
  rw [BitVec.sle_eq_decide, toInt_ofNat_small a ha, toInt_ofNat_small b hb]
  by_cases h : a ≤ b
  · simp [h]
  · simp [h]

theorem mask_apply (i : grid1.Coords) (p : Fin 256) (j : Fin 2048) :
    k1_pay2 i (ix2 p j) = if j.val ≤ (i 1).val * 256 + p.val then 1#1 else 0#1 := by
  have hi : (i 1).val < 8 := (i 1).isLt
  unfold k1_pay2
  show IntOp.cmpi .sle (iota .tc S256x2048 32 [1] iota_S256x2048_d1_w32 (ix2 p j))
      (IntOp.addi (Scalar.muli (BitVec.ofNat 32 (i 1).val) 256#32) (iota .tc S256x2048 32 [0] iota_S256x2048_d0_w32 (ix2 p j))) = _
  rw [iota_single_apply, iota_single_apply]
  have e : IntOp.addi (Scalar.muli (BitVec.ofNat 32 (i 1).val) 256#32) (BitVec.ofNat 32 ((ix2 p j : S256x2048.Idx) 0).val)
      = BitVec.ofNat 32 ((i 1).val * 256 + p.val) := by
    show BitVec.ofNat 32 (i 1).val * BitVec.ofNat 32 256 + BitVec.ofNat 32 p.val = _
    rw [← BitVec.ofNat_mul, ← BitVec.ofNat_add]
  rw [e]
  exact sle_ofNat_small j.val ((i 1).val * 256 + p.val) (by have := j.isLt; omega) (by have := p.isLt; omega)

/-! ## A block's unit leading axis -/

section Layout
variable {α : Type} {a b : ℕ}

/-- A [1, a, b] block viewed as [a, b] holds, at (p, c), the block's entry (0, p, c). -/
theorem dropLead_apply (x : (⟨3, ![1, a, b]⟩ : Shape).Idx → α)
    (h : (⟨3, ![1, a, b]⟩ : Shape).ShapeCasts ⟨2, ![a, b]⟩) (p : Fin a) (c : Fin b) :
    shapeCast ⟨2, ![a, b]⟩ x h (ix2 p c) = x (ix3 (0 : Fin 1) p c) :=
  shapeCast_apply x h _ _ (by
    rw [Shape.rowMajor_val_two, Shape.rowMajor_val_three]
    show ((0 : ℕ) * a + p.val) * b + c.val = p.val * b + c.val
    rw [Nat.zero_mul, Nat.zero_add])

/-- An [a, b] array stored as a [1, a, b] block holds, at (0, p, c), the array's entry (p, c). -/
theorem addLead_apply (x : (⟨2, ![a, b]⟩ : Shape).Idx → α)
    (h : (⟨2, ![a, b]⟩ : Shape).ShapeCasts ⟨3, ![1, a, b]⟩) (p : Fin a) (c : Fin b) :
    shapeCast ⟨3, ![1, a, b]⟩ x h (ix3 (0 : Fin 1) p c) = x (ix2 p c) :=
  shapeCast_apply x h _ _ (by
    rw [Shape.rowMajor_val_two, Shape.rowMajor_val_three]
    show p.val * b + c.val = ((0 : ℕ) * a + p.val) * b + c.val
    rw [Nat.zero_mul, Nat.zero_add])

end Layout

/-! ## The links of the chain as terms -/

/-- The 256 × 2048 scores of one head: the query rows against all key rows. -/
def scores (q : Vec Ideal S1x256x64 .bf16) (k : Vec Ideal S1x2048x64 .bf16) : FVec Ideal S256x2048 .f32 :=
  matmul dot_S256x64_S2048x64_S256x2048_1_1_0_0_n_n none
    (shapeCast S256x64 q shapeCasts_S1x256x64_S256x64 : FVec Ideal S256x64 .bf16)
    (shapeCast S2048x64 k shapeCasts_S1x2048x64_S2048x64 : FVec Ideal S2048x64 .bf16)
    (constant S256x2048 .f32 0x00000000#32)

/-- The scores with the positions the mask clears replaced by the fill word. -/
def logits (msk : IVec S256x2048 1) (q : Vec Ideal S1x256x64 .bf16) (k : Vec Ideal S1x2048x64 .bf16) :
    FVec Ideal S256x2048 .f32 :=
  select msk (scores q k) (broadcast S256x2048 (Ideal.ofBits .f32 0x3089705F#32))

/-- The row softmax of the logits. -/
def weights (msk : IVec S256x2048 1) (q : Vec Ideal S1x256x64 .bf16) (k : Vec Ideal S1x2048x64 .bf16) :
    FVec Ideal S256x2048 .f32 :=
  Cert.RowSoftmax.normRows
    (Cert.RowSoftmax.expRows (logits msk q k)
      reduces_S256x2048_S256 (.inl rfl) rfl shapeCasts_S256_S256x1 broadcasts_S256x1_S256x2048)
    reduces_S256x2048_S256 (.inl rfl) rfl shapeCasts_S256_S256x1 broadcasts_S256x1_S256x2048

/-- One head is the weights times the values, stored as a [1, 256, 64] block. -/
theorem head_eq (msk : IVec S256x2048 1) (q : Vec Ideal S1x256x64 .bf16) (k v : Vec Ideal S1x2048x64 .bf16) :
    head (F := Ideal) msk q k v
      = shapeCast S1x256x64
          (truncf .bf16
            (matmul dot_S256x2048_S2048x64_S256x64_1_0_0_1_n_n none
              (truncf .bf16 (weights msk q k) bitsLt_bf16_f32 : FVec Ideal S256x2048 .bf16)
              (shapeCast S2048x64 v shapeCasts_S1x2048x64_S2048x64 : FVec Ideal S2048x64 .bf16)
              (constant S256x64 .f32 0x00000000#32))
            bitsLt_bf16_f32 : FVec Ideal S256x64 .bf16)
          shapeCasts_S256x64_S1x256x64 := rfl

/-! The coordinates the two products' dimension numbers read: the kept axis of each operand is the output's. -/

theorem qk_lhs0 (i : S256x2048.Idx) (c : dot_S256x64_S2048x64_S256x2048_1_1_0_0_n_n.contr.Idx) :
    (dot_S256x64_S2048x64_S256x2048_1_1_0_0_n_n.lhsIdx i c 0).val = (i 0).val := by
  unfold DotDims.lhsIdx
  rw [dif_neg (show ¬(0 : Fin S256x64.rank) ∈ dot_S256x64_S2048x64_S256x2048_1_1_0_0_n_n.lhsBatch by decide),
    dif_pos (show (0 : Fin S256x64.rank) ∈ dot_S256x64_S2048x64_S256x2048_1_1_0_0_n_n.lhsNonContracting by decide)]
  rfl

theorem qk_rhs0 (i : S256x2048.Idx) (c : dot_S256x64_S2048x64_S256x2048_1_1_0_0_n_n.contr.Idx) :
    (dot_S256x64_S2048x64_S256x2048_1_1_0_0_n_n.rhsIdx i c 0).val = (i 1).val := by
  unfold DotDims.rhsIdx
  rw [dif_neg (show ¬(0 : Fin S2048x64.rank) ∈ dot_S256x64_S2048x64_S256x2048_1_1_0_0_n_n.rhsBatch by decide),
    dif_pos (show (0 : Fin S2048x64.rank) ∈ dot_S256x64_S2048x64_S256x2048_1_1_0_0_n_n.rhsNonContracting by decide)]
  rfl

theorem wv_lhs0 (i : S256x64.Idx) (c : dot_S256x2048_S2048x64_S256x64_1_0_0_1_n_n.contr.Idx) :
    (dot_S256x2048_S2048x64_S256x64_1_0_0_1_n_n.lhsIdx i c 0).val = (i 0).val := by
  unfold DotDims.lhsIdx
  rw [dif_neg (show ¬(0 : Fin S256x2048.rank) ∈ dot_S256x2048_S2048x64_S256x64_1_0_0_1_n_n.lhsBatch by decide),
    dif_pos (show (0 : Fin S256x2048.rank) ∈ dot_S256x2048_S2048x64_S256x64_1_0_0_1_n_n.lhsNonContracting by decide)]
  rfl

theorem wv_rhs1 (i : S256x64.Idx) (c : dot_S256x2048_S2048x64_S256x64_1_0_0_1_n_n.contr.Idx) :
    (dot_S256x2048_S2048x64_S256x64_1_0_0_1_n_n.rhsIdx i c 1).val = (i 1).val := by
  unfold DotDims.rhsIdx
  rw [dif_neg (show ¬(1 : Fin S2048x64.rank) ∈ dot_S256x2048_S2048x64_S256x64_1_0_0_1_n_n.rhsBatch by decide),
    dif_pos (show (1 : Fin S2048x64.rank) ∈ dot_S256x2048_S2048x64_S256x64_1_0_0_1_n_n.rhsNonContracting by decide)]
  rfl

/-! ## The links read at an index -/

/-- Entry (p, j) of the scores: the inner product of query row p and key row j. -/
theorem scores_apply (q : Vec Ideal S1x256x64 .bf16) (k : Vec Ideal S1x2048x64 .bf16) (p : Fin 256) (j : Fin 2048) :
    scores q k (ix2 p j) = ∑ d' : Fin 64, q (ix3 (0 : Fin 1) p d') * k (ix3 (0 : Fin 1) j d') := by
  unfold scores
  refine (Cert.IndexReads.matmul_zero_single dot_S256x64_S2048x64_S256x2048_1_1_0_0_n_n 64 rfl rfl none _ _
    (ix2 p j) (fun d' => ix2 p d') (fun d' => ix2 j d') (fun d' => ?_) (fun d' => ?_)).trans ?_
  · funext ax; apply Fin.ext
    match ax with
    | ⟨0, _⟩ => exact qk_lhs0 _ _
    | ⟨1, _⟩ =>
      exact (dot_S256x64_S2048x64_S256x2048_1_1_0_0_n_n.lhsIdx_val_of_single rfl _ _).trans
        (contrEquiv1_symm_val dot_S256x64_S2048x64_S256x2048_1_1_0_0_n_n 64 rfl rfl d')
  · funext ax; apply Fin.ext
    match ax with
    | ⟨0, _⟩ => exact qk_rhs0 _ _
    | ⟨1, _⟩ =>
      exact (dot_S256x64_S2048x64_S256x2048_1_1_0_0_n_n.rhsIdx_val_of_single rfl _ _).trans
        (contrEquiv1_symm_val dot_S256x64_S2048x64_S256x2048_1_1_0_0_n_n 64 rfl rfl d')
  · exact Finset.sum_congr rfl fun d' _ => by
      rw [dropLead_apply, dropLead_apply]

/-- Entry (p, j) of the logits of the block at grid point i: the row's logit as the specification states it, the
    row's position being the block's first row plus p. -/
theorem logits_apply (i : grid1.Coords) (q : Vec Ideal S1x256x64 .bf16) (k : Vec Ideal S1x2048x64 .bf16)
    (p : Fin 256) (j : Fin 2048) :
    logits (k1_pay2 i) q k (ix2 p j)
      = Cert.Attn.logitRow (fun d' => q (ix3 (0 : Fin 1) p d')) (fun j d' => k (ix3 (0 : Fin 1) j d'))
          ((i 1).val * 256 + p.val) j := by
  unfold logits Cert.Attn.logitRow
  rw [select_apply, mask_apply, broadcast_apply, scores_apply]
  by_cases h : j.val ≤ (i 1).val * 256 + p.val
  · rw [if_pos h, if_pos h, select_one]
  · rw [if_neg h, if_neg h, select_zero]; rfl

/-- Entry (p, j) of the weights: the row's unnormalised weight over the row's sum of them. -/
theorem weights_apply (i : grid1.Coords) (q : Vec Ideal S1x256x64 .bf16) (k : Vec Ideal S1x2048x64 .bf16)
    (p : Fin 256) (j : Fin 2048) :
    weights (k1_pay2 i) q k (ix2 p j)
      = Ideal.div
          (Cert.Attn.weightRow (fun d' => q (ix3 (0 : Fin 1) p d')) (fun j d' => k (ix3 (0 : Fin 1) j d'))
            ((i 1).val * 256 + p.val) j)
          (∑ j' : Fin 2048,
            Cert.Attn.weightRow (fun d' => q (ix3 (0 : Fin 1) p d')) (fun j d' => k (ix3 (0 : Fin 1) j d'))
              ((i 1).val * 256 + p.val) j') := by
  have hf : (fun j'' : Fin 2048 => logits (k1_pay2 i) q k (ix2 p j''))
      = fun j'' => Cert.Attn.logitRow (fun d' => q (ix3 (0 : Fin 1) p d')) (fun j d' => k (ix3 (0 : Fin 1) j d'))
          ((i 1).val * 256 + p.val) j'' := funext fun j'' => logits_apply i q k p j''
  have e : ∀ j' : Fin 2048,
      Cert.RowSoftmax.expRows (logits (k1_pay2 i) q k) reduces_S256x2048_S256 (.inl rfl) rfl shapeCasts_S256_S256x1
          broadcasts_S256x1_S256x2048 (ix2 p j')
        = Cert.Attn.weightRow (fun d' => q (ix3 (0 : Fin 1) p d')) (fun j d' => k (ix3 (0 : Fin 1) j d'))
            ((i 1).val * 256 + p.val) j' := fun j' => by
    refine (Cert.RowSoftmax.expRows_apply (logits (k1_pay2 i) q k) reduces_S256x2048_S256 (.inl rfl) rfl
      shapeCasts_S256_S256x1 broadcasts_S256x1_S256x2048 p j').trans ?_
    exact congrArg₂ (fun x f => Ideal.exp (x - (Finset.univ : Finset (Fin 2048)).fold max
      (Ideal.ofBits .f32 0xFF800000#32) f)) (logits_apply i q k p j') hf
  refine (Cert.RowSoftmax.normRows_apply _ reduces_S256x2048_S256 (.inl rfl) rfl shapeCasts_S256_S256x1
    broadcasts_S256x1_S256x2048 p j).trans ?_
  exact congrArg₂ Ideal.div (e j) (Finset.sum_congr rfl fun j' _ => e j')

theorem head_apply (i : grid1.Coords) (q : Vec Ideal S1x256x64 .bf16) (k : Vec Ideal S1x2048x64 .bf16)
    (v : Vec Ideal S1x2048x64 .bf16) (p : Fin 256) (d : Fin 64) :
    head (F := Ideal) (k1_pay2 i) q k v (ix3 (0 : Fin 1) p d)
      = Cert.Attn.attnEntry (fun d' => q (ix3 (0 : Fin 1) p d')) (fun j d' => k (ix3 (0 : Fin 1) j d'))
          (fun j => v (ix3 (0 : Fin 1) j d)) ((i 1).val * 256 + p.val) := by
  rw [head_eq]
  refine (addLead_apply _ _ p d).trans ?_
  refine (truncf_apply (ψ := .bf16) _ bitsLt_bf16_f32 _).trans ?_
  refine (Cert.RowSoftmax.matmul_rows_cols_apply dot_S256x2048_S2048x64_S256x64_1_0_0_1_n_n rfl rfl rfl rfl
    wv_lhs0 wv_rhs1 none _ _ p d).trans ?_
  unfold Cert.Attn.attnEntry
  refine Finset.sum_congr rfl fun j _ => ?_
  exact congrArg₂ (· * ·) (weights_apply i q k p j) (dropLead_apply v _ j d)

end Cert.KernelIdeal.HeadValue
end
-- ==== Proof.Block1.lean ====
/-
  What one grid point of the attention kernel writes into its output block, as ONE function of the block index.

  The body writes twelve column pieces of 64, one per head, each the head's chain of operations on the matching 64
  columns of the query block, the key block and the value block. Entry `(0, p, e)` of the block therefore depends on
  the head `e / 64` only through those columns: it is the attention entry of query row `p` of the block — position
  `256 · (the point's second coordinate) + p` of the sequence — against all 2048 keys, over the head's 64 features,
  weighting value column `e`.
-/
import proofs.«113351_j20151986553284_2_alg».proof.Proof.HeadValue
import Idealize.ShloMosaic.Lib.Pipeline.Value

set_option maxRecDepth 16384

noncomputable section

open scoped BigOperators

namespace Cert.KernelIdeal.Block1

open Cert.KernelIdeal Cert.KernelIdeal.Gen Cert.KernelIdeal.GenP Cert.KernelIdeal.Heads Cert.KernelIdeal.HeadValue
open Idealize.ShloMosaic Idealize.ShloMosaic.ValueIdx Idealize.SL.Sem

/-- The attention entry depends on its four arguments only. -/
theorem attnEntry_congr {qr qr' : Fin 64 → EReal} {kk kk' : Fin 2048 → Fin 64 → EReal} {vv vv' : Fin 2048 → EReal}
    {r r' : ℕ} (hq : qr = qr') (hk : kk = kk') (hv : vv = vv') (hr : r = r') :
    Cert.Attn.attnEntry qr kk vv r = Cert.Attn.attnEntry qr' kk' vv' r' := by
  subst hq hk hv hr; rfl

/-- The output block of the point with coordinates `i`, from its three input blocks, index by index. -/
def blockOut (i : grid1.Coords) (x0 : Vec Ideal S1x256x768 .bf16) (x1 : Vec Ideal S1x2048x768 .bf16)
    (x2 : Vec Ideal S1x2048x768 .bf16) : S1x256x768.Idx → EReal := fun y =>
  Cert.Attn.attnEntry (fun d' => x0 (ix3 (0 : Fin 1) (y 1) (Cert.Attn.col (Cert.Attn.headOf (y 2)) d')))
    (fun j d' => x1 (ix3 (0 : Fin 1) j (Cert.Attn.col (Cert.Attn.headOf (y 2)) d')))
    (fun j => x2 (ix3 (0 : Fin 1) j (y 2))) ((i 1).val * 256 + (y 1).val)

/-- Head `h`'s piece — `head` on columns 64h … 64h+63 of the three blocks — is the block function on those
    columns of the output block. -/
theorem piece_fn (i : grid1.Coords) (x0 : Vec Ideal S1x256x768 .bf16) (x1 : Vec Ideal S1x2048x768 .bf16)
    (x2 : Vec Ideal S1x2048x768 .bf16) (h : Fin 12)
    (inq : ∀ a, (![0, 0, 64 * h.val] : Fin 3 → ℕ) a + S1x256x64.size a ≤ S1x256x768.size a)
    (ink : ∀ a, (![0, 0, 64 * h.val] : Fin 3 → ℕ) a + S1x2048x64.size a ≤ S1x2048x768.size a)
    (x : S1x256x64.Idx) :
    head (k1_pay2 i) (View.ld x0 (Rect.unit (s := S1x256x768) ![0, 0, 64 * h.val] S1x256x64.size inq))
        (View.ld x1 (Rect.unit (s := S1x2048x768) ![0, 0, 64 * h.val] S1x2048x64.size ink))
        (View.ld x2 (Rect.unit (s := S1x2048x768) ![0, 0, 64 * h.val] S1x2048x64.size ink)) x
      = blockOut i x0 x1 x2 ((Rect.unit (s := S1x256x768) ![0, 0, 64 * h.val] S1x256x64.size inq).emb x) := by
  obtain ⟨u, p, d, rfl⟩ : ∃ (u : Fin 1) (p : Fin 256) (d : Fin 64), x = ix3 u p d := ⟨x 0, x 1, x 2, eq_ix3 x⟩
  obtain rfl : u = 0 := Subsingleton.elim _ _
  rw [head_apply]
  unfold blockOut
  refine attnEntry_congr (funext fun d' => ?_) (funext fun j => funext fun d' => ?_) (funext fun j => ?_) ?_
  · show x0 ((Rect.unit (s := S1x256x768) ![0, 0, 64 * h.val] S1x256x64.size inq).emb (ix3 0 p d')) = _
    refine congrArg x0 (funext fun a => Fin.ext ?_)
    have hd := d.isLt; have hd' := d'.isLt
    match a with
    | ⟨0, _⟩ => show 0 + 1 * 0 = 0; rfl
    | ⟨1, _⟩ => show 0 + 1 * p.val = 0 + 1 * p.val; rfl
    | ⟨2, _⟩ => show 64 * h.val + 1 * d'.val = (64 * h.val + 1 * d.val) / 64 * 64 + d'.val; omega
  · show x1 ((Rect.unit (s := S1x2048x768) ![0, 0, 64 * h.val] S1x2048x64.size ink).emb (ix3 0 j d')) = _
    refine congrArg x1 (funext fun a => Fin.ext ?_)
    have hd := d.isLt; have hd' := d'.isLt
    match a with
    | ⟨0, _⟩ => show 0 + 1 * 0 = 0; rfl
    | ⟨1, _⟩ => show 0 + 1 * j.val = j.val; omega
    | ⟨2, _⟩ => show 64 * h.val + 1 * d'.val = (64 * h.val + 1 * d.val) / 64 * 64 + d'.val; omega
  · show x2 ((Rect.unit (s := S1x2048x768) ![0, 0, 64 * h.val] S1x2048x64.size ink).emb (ix3 0 j d)) = _
    refine congrArg x2 (funext fun a => Fin.ext ?_)
    match a with
    | ⟨0, _⟩ => show 0 + 1 * 0 = 0; rfl
    | ⟨1, _⟩ => show 0 + 1 * j.val = j.val; omega
    | ⟨2, _⟩ => show 64 * h.val + 1 * d.val = 64 * h.val + 1 * d.val; rfl
  · show (i 1).val * 256 + p.val = (i 1).val * 256 + (0 + 1 * p.val); omega

/-- The whole output block: the twelve pieces are the twelve column ranges of ONE function, and they cover the block. -/
theorem out1_3_eq (i : grid1.Coords) (x0 : Vec Ideal S1x256x768 .bf16) (x1 : Vec Ideal S1x2048x768 .bf16)
    (x2 : Vec Ideal S1x2048x768 .bf16) : out1_3 i x0 x1 x2 = blockOut i x0 x1 x2 := by
  funext y
  unfold out1_3
  refine View.canon_apply_of_pieces (Val := Elt Ideal) (e := .bf16) (blockOut i x0 x1 x2) _ ?_ y (cover1_3 _ _ _ _ _ _ _ _ _ _ _ _ y)
  intro pc hpc x
  simp only [List.mem_cons, List.mem_nil_iff, or_false] at hpc
  rcases hpc with rfl | rfl | rfl | rfl | rfl | rfl | rfl | rfl | rfl | rfl | rfl | rfl
  · exact (congrFun (Heads.piece11 i x0 x1 x2) x).trans (piece_fn i x0 x1 x2 ⟨11, by decide⟩ _ _ x)
  · exact (congrFun (Heads.piece10 i x0 x1 x2) x).trans (piece_fn i x0 x1 x2 ⟨10, by decide⟩ _ _ x)
  · exact (congrFun (Heads.piece9 i x0 x1 x2) x).trans (piece_fn i x0 x1 x2 ⟨9, by decide⟩ _ _ x)
  · exact (congrFun (Heads.piece8 i x0 x1 x2) x).trans (piece_fn i x0 x1 x2 ⟨8, by decide⟩ _ _ x)
  · exact (congrFun (Heads.piece7 i x0 x1 x2) x).trans (piece_fn i x0 x1 x2 ⟨7, by decide⟩ _ _ x)
  · exact (congrFun (Heads.piece6 i x0 x1 x2) x).trans (piece_fn i x0 x1 x2 ⟨6, by decide⟩ _ _ x)
  · exact (congrFun (Heads.piece5 i x0 x1 x2) x).trans (piece_fn i x0 x1 x2 ⟨5, by decide⟩ _ _ x)
  · exact (congrFun (Heads.piece4 i x0 x1 x2) x).trans (piece_fn i x0 x1 x2 ⟨4, by decide⟩ _ _ x)
  · exact (congrFun (Heads.piece3 i x0 x1 x2) x).trans (piece_fn i x0 x1 x2 ⟨3, by decide⟩ _ _ x)
  · exact (congrFun (Heads.piece2 i x0 x1 x2) x).trans (piece_fn i x0 x1 x2 ⟨2, by decide⟩ _ _ x)
  · exact (congrFun (Heads.piece1 i x0 x1 x2) x).trans (piece_fn i x0 x1 x2 ⟨1, by decide⟩ _ _ x)
  · exact (congrFun (Heads.piece0 i x0 x1 x2) x).trans (piece_fn i x0 x1 x2 ⟨0, by decide⟩ _ _ x)

end Cert.KernelIdeal.Block1

end
-- ==== Proof.Region1.lean ====
/-
  Region 1 of the kernel program: causal attention, block by block, as one array.

  The grid has a point per sequence `b` and per tile of 256 query positions. The point reads the tile's 256 query
  rows and ALL 2048 key rows and value rows of sequence `b`, and writes the tile's 256 rows of the result. Query row
  `p` of tile `q` is position `256 q + p` of the sequence, which is what the mask compares the key positions
  with; so the rows the 32 points write are the rows of one array: at `(b, s, e)` the attention entry of token
  `(b, s)` in head `e / 64`, weighting value column `e`.
-/
import proofs.«113351_j20151986553284_2_alg».proof.Proof.KernelIdealFrame
import proofs.«113351_j20151986553284_2_alg».proof.Proof.Block1
import Idealize.ShloMosaic.Lib.Pipeline.Value

set_option maxRecDepth 16384

noncomputable section

open scoped BigOperators

namespace Cert.KernelIdeal.Region1

open Cert.KernelIdeal Cert.KernelIdeal.Gen Cert.KernelIdeal.GenP Cert.KernelIdeal.Block1
open Idealize.ShloMosaic Idealize.ShloMosaic.ValueIdx Idealize.ShloMosaic.TcCoe Idealize.SL.Sem
open Idealize.ShloMosaic.Pipeline (Dat Cfg Window)

variable (V : (c : Dev nD) → (b : Ref sig .tc) → Buf (Elt Ideal) ((c : Thread nD τ).loc b))

/-- Causal attention of every token, from the query, key and value arrays. -/
def attn (Q K Vv : S4x2048x768.Idx → EReal) : S4x2048x768.Idx → EReal := fun i =>
  Cert.Attn.ctx (fun b s e => Q (ix3 b s e)) (fun b s e => K (ix3 b s e)) (fun b s e => Vv (ix3 b s e)) (i 0) (i 1) (i 2)

/-- The printed index maps, decided over the 32 points: the query block and the output block move together (sequence,
    tile); the key and value blocks follow the sequence only; the output's tile number is the point's second
    coordinate. -/
theorem idx_facts : ∀ t : Fin cfg1.N,
    win1_0.index t (0 : Fin 3) = win1_3.index t (0 : Fin 3) ∧ win1_0.index t (1 : Fin 3) = win1_3.index t (1 : Fin 3)
    ∧ win1_0.index t (2 : Fin 3) = 0
    ∧ win1_1.index t (0 : Fin 3) = win1_3.index t (0 : Fin 3) ∧ win1_1.index t (1 : Fin 3) = 0 ∧ win1_1.index t (2 : Fin 3) = 0
    ∧ win1_2.index t (0 : Fin 3) = win1_3.index t (0 : Fin 3) ∧ win1_2.index t (1 : Fin 3) = 0 ∧ win1_2.index t (2 : Fin 3) = 0
    ∧ win1_3.index t (2 : Fin 3) = 0 ∧ win1_3.index t (0 : Fin 3) ≤ 3 ∧ win1_3.index t (1 : Fin 3) ≤ 7
    ∧ win1_3.index t (1 : Fin 3) = (grid1.coords t (1 : Fin 2)).val :=
  (by decide +kernel : ∀ t : Fin grid1.N, _)

/-- Every (sequence, tile) is some point's. -/
theorem idx_onto : ∀ (q0 : Fin 4) (q1 : Fin 8), ∃ t : Fin cfg1.N, win1_3.index t = ![q0.val, q1.val, 0] :=
  (by decide +kernel : ∀ (q0 : Fin 4) (q1 : Fin 8), ∃ t : Fin grid1.N, win1_3.index t = ![q0.val, q1.val, 0])

/-- What point `t` writes back is block `t` of the attention array of the arrays the region finds. -/
theorem flushed_eq (c : Dev nD) (t : Fin cfg1.N) :
    (dat1 V c).flushed 3 t
      = ((cfg1.win 3).blk t).view.read (Elt Ideal) (attn (V c main_v6) (V c main_v7) (V c main_v8)) := by
  show (cfg1.win 3).cut (grid1.coords t) ((dat1 V c).after 3 t) = _
  rw [after1_3, out1_3_eq]
  funext j
  show blockOut (grid1.coords t) (iblk1 V c 0 t) (iblk1 V c 1 t) (iblk1 V c 2 t) j
      = attn (V c main_v6) (V c main_v7) (V c main_v8) (((cfg1.win 3).blk t).view.emb j)
  obtain ⟨e0, e1, e2, e3, e4, e5, e6, e7, e8, e9, e10, e11, e12⟩ := idx_facts t
  have hj0 : (j 0).val < 1 := (j 0).isLt
  have hj1 : (j 1).val < 256 := (j 1).isLt
  have hj2 : (j 2).val < 768 := (j 2).isLt
  unfold blockOut attn Cert.Attn.ctx
  refine attnEntry_congr (funext fun d' => ?_) (funext fun j' => funext fun d' => ?_) (funext fun j' => ?_) ?_
  · show V c main_v6 (((cfg1.win 0).blk t).view.emb (ix3 (0 : Fin 1) (j 1) (Cert.Attn.col (Cert.Attn.headOf (j 2)) d'))) = _
    refine congrArg (V c main_v6) (funext fun a => Fin.ext ?_)
    have hd' := d'.isLt
    match a with
    | ⟨0, _⟩ => show win1_0.index t (0 : Fin 3) * 1 + 1 * 0 = win1_3.index t (0 : Fin 3) * 1 + 1 * (j 0).val; omega
    | ⟨1, _⟩ => show win1_0.index t (1 : Fin 3) * 256 + 1 * (j 1).val = win1_3.index t (1 : Fin 3) * 256 + 1 * (j 1).val; omega
    | ⟨2, _⟩ => show win1_0.index t (2 : Fin 3) * 768 + 1 * ((j 2).val / 64 * 64 + d'.val)
          = (win1_3.index t (2 : Fin 3) * 768 + 1 * (j 2).val) / 64 * 64 + d'.val; omega
  · show V c main_v7 (((cfg1.win 1).blk t).view.emb (ix3 (0 : Fin 1) j' (Cert.Attn.col (Cert.Attn.headOf (j 2)) d'))) = _
    refine congrArg (V c main_v7) (funext fun a => Fin.ext ?_)
    have hd' := d'.isLt
    match a with
    | ⟨0, _⟩ => show win1_1.index t (0 : Fin 3) * 1 + 1 * 0 = win1_3.index t (0 : Fin 3) * 1 + 1 * (j 0).val; omega
    | ⟨1, _⟩ => show win1_1.index t (1 : Fin 3) * 2048 + 1 * j'.val = j'.val; omega
    | ⟨2, _⟩ => show win1_1.index t (2 : Fin 3) * 768 + 1 * ((j 2).val / 64 * 64 + d'.val)
          = (win1_3.index t (2 : Fin 3) * 768 + 1 * (j 2).val) / 64 * 64 + d'.val; omega
  · show V c main_v8 (((cfg1.win 2).blk t).view.emb (ix3 (0 : Fin 1) j' (j 2))) = _
    refine congrArg (V c main_v8) (funext fun a => Fin.ext ?_)
    match a with
    | ⟨0, _⟩ => show win1_2.index t (0 : Fin 3) * 1 + 1 * 0 = win1_3.index t (0 : Fin 3) * 1 + 1 * (j 0).val; omega
    | ⟨1, _⟩ => show win1_2.index t (1 : Fin 3) * 2048 + 1 * j'.val = j'.val; omega
    | ⟨2, _⟩ => show win1_2.index t (2 : Fin 3) * 768 + 1 * (j 2).val = win1_3.index t (2 : Fin 3) * 768 + 1 * (j 2).val; omega
  · show (grid1.coords t (1 : Fin 2)).val * 256 + (j 1).val = win1_3.index t (1 : Fin 3) * 256 + 1 * (j 1).val; omega

/-- An index of the array is in point `t`'s block iff each coordinate is in the block's range on its axis. -/
theorem mem_blk (t : Fin cfg1.N) (i : S4x2048x768.Idx) :
    i ∈ ((cfg1.win 3).blk t).view.set ↔ ∀ a : Fin 3, win1_3.index t a * S1x256x768.size a ≤ (i a).val
      ∧ (i a).val < win1_3.index t a * S1x256x768.size a + S1x256x768.size a := by
  show i ∈ ((View.whole main_v9).slice (win1_3.rect t)).set ↔ _
  rw [View.set_slice_whole, Rect.mem_set_unit]
  exact Iff.rfl

/-- The 32 blocks fill the array: token `(b, s)` is in the block of sequence `b`, tile `s / 256`. -/
theorem cover (i : S4x2048x768.Idx) :
    ∃ t : Fin cfg1.N, (cfg1.win 3).flush t = true ∧ i ∈ ((cfg1.win 3).blk t).view.set := by
  have hi0 : (i 0).val < 4 := (i 0).isLt
  have hi1 : (i 1).val < 2048 := (i 1).isLt
  have hi2 : (i 2).val < 768 := (i 2).isLt
  obtain ⟨t, ht⟩ := idx_onto ⟨(i 0).val, by omega⟩ ⟨(i 1).val / 256, by omega⟩
  have q0 : win1_3.index t (0 : Fin 3) = (i 0).val := congrFun ht 0
  have q1 : win1_3.index t (1 : Fin 3) = (i 1).val / 256 := congrFun ht 1
  have q2 : win1_3.index t (2 : Fin 3) = 0 := congrFun ht 2
  refine ⟨t, flush1_3 t, ?_⟩
  rw [mem_blk]
  intro a
  match a with
  | ⟨0, _⟩ => show win1_3.index t (0 : Fin 3) * 1 ≤ (i 0).val ∧ (i 0).val < win1_3.index t (0 : Fin 3) * 1 + 1; omega
  | ⟨1, _⟩ => show win1_3.index t (1 : Fin 3) * 256 ≤ (i 1).val ∧ (i 1).val < win1_3.index t (1 : Fin 3) * 256 + 256; omega
  | ⟨2, _⟩ => show win1_3.index t (2 : Fin 3) * 768 ≤ (i 2).val ∧ (i 2).val < win1_3.index t (2 : Fin 3) * 768 + 768; omega

/-- The array the region leaves: the attention array of the arrays it found, whole. -/
theorem final (c : Dev nD) :
    (dat1 V c).arrAt 3 cfg1.N = attn (V c main_v6) (V c main_v7) (V c main_v8) :=
  (dat1 V c).arrAt_eq_of_cover 3 _ (fun t _ => flushed_eq V c t) cover

end Cert.KernelIdeal.Region1

end
-- ==== Proof.Region2.lean ====
/-
  Region 2 of the kernel program: the output projection, block by block, as one array.
-/
import proofs.«113351_j20151986553284_2_alg».proof.Proof.KernelIdealFrame
import proofs.«113351_j20151986553284_2_alg».proof.Proof.Linear
import Idealize.ShloMosaic.Lib.Pipeline.Value

set_option maxRecDepth 16384

noncomputable section

open scoped BigOperators

namespace Cert.KernelIdeal.Region2

open Cert.KernelIdeal Cert.KernelIdeal.Gen Cert.KernelIdeal.GenP Idealize.ShloMosaic Idealize.ShloMosaic.ValueIdx Idealize.ShloMosaic.TcCoe
open Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- Every token row times the weight matrix, plus the bias row. -/
def proj (A : S8192x768.Idx → EReal) (W : S768x768.Idx → EReal) (B : S1x768.Idx → EReal) : S8192x768.Idx → EReal :=
  fun i => (∑ d : Fin 768, A (ix2 (i 0) d) * W (ix2 d (i 1))) + B (ix2 (0 : Fin 1) (i 1))

/-- At every point of the grid the token window and the output window sit on the same block of rows (one of sixteen)
    and on column block zero; the weight window and the bias window sit at the origin. -/
theorem idx_facts : ∀ t : Fin cfg2.N, win2_0.index t (0 : Fin 2) = win2_3.index t (0 : Fin 2)
    ∧ win2_0.index t (1 : Fin 2) = 0 ∧ win2_1.index t (0 : Fin 2) = 0 ∧ win2_1.index t (1 : Fin 2) = 0
    ∧ win2_2.index t (0 : Fin 2) = 0 ∧ win2_2.index t (1 : Fin 2) = 0
    ∧ win2_3.index t (1 : Fin 2) = 0 ∧ win2_3.index t (0 : Fin 2) ≤ 15 :=
  (by decide +kernel : ∀ t : Fin grid2.N, _)

/-- Each of the sixteen row blocks of the output is some point's block. -/
theorem idx_onto : ∀ (q0 : Fin 16), ∃ t : Fin cfg2.N, win2_3.index t = ![q0.val, 0] :=
  (by decide +kernel : ∀ (q0 : Fin 16), ∃ t : Fin grid2.N, win2_3.index t = ![q0.val, 0])

/-- What point `t` writes back is its block of the projected array. -/
theorem flushed_eq (c : Dev nD) (t : Fin cfg2.N) :
    (dat2 V c).flushed 3 t = ((cfg2.win 3).blk t).view.read (Elt Ideal) (proj (V c main_v10) (V c main_arg3) (V c main_v11)) := by
  show (cfg2.win 3).cut (grid2.coords t) ((dat2 V c).after 3 t) = _
  rw [after2_3]
  unfold out2_3
  rw [View.canon_unit_zero hz]
  simp only [View.ld_unit_zero (S := S512x768) hz, View.ld_unit_zero (S := S768x768) hz, View.ld_unit_zero (S := S1x768) hz]
  funext j
  show k2_pay1 (iblk2 V c 0 t) (iblk2 V c 1 t) (iblk2 V c 2 t) j
      = proj (V c main_v10) (V c main_arg3) (V c main_v11) (((cfg2.win 3).blk t).view.emb j)
  obtain ⟨e0, e1, e2, e3, e4, e5, e6, e7⟩ := idx_facts t
  refine (congrArg (k2_pay1 (iblk2 V c 0 t) (iblk2 V c 1 t) (iblk2 V c 2 t)) (eq_ix2 j)).trans ?_
  refine (Linear.outproj_apply (iblk2 V c 0 t) (iblk2 V c 1 t) (iblk2 V c 2 t) (j 0) (j 1)).trans ?_
  have h0 : ∀ d : Fin 768, iblk2 V c 0 t (ix2 (j 0) d)
      = V c main_v10 (ix2 ((((cfg2.win 3).blk t).view.emb j) 0) d) := fun d => by
    show V c main_v10 (((cfg2.win 0).blk t).view.emb (ix2 (j 0) d)) = _
    refine congrArg (V c main_v10) (funext fun a => Fin.ext ?_)
    match a with
    | ⟨0, _⟩ => show win2_0.index t (0 : Fin 2) * 512 + 1 * (j 0).val = win2_3.index t (0 : Fin 2) * 512 + 1 * (j 0).val; rw [e0]
    | ⟨1, _⟩ => show win2_0.index t (1 : Fin 2) * 768 + 1 * d.val = d.val; rw [e1]; omega
  have h1 : ∀ d : Fin 768, iblk2 V c 1 t (ix2 d (j 1))
      = V c main_arg3 (ix2 d ((((cfg2.win 3).blk t).view.emb j) 1)) := fun d => by
    show V c main_arg3 (((cfg2.win 1).blk t).view.emb (ix2 d (j 1))) = _
    refine congrArg (V c main_arg3) (funext fun a => Fin.ext ?_)
    match a with
    | ⟨0, _⟩ => show win2_1.index t (0 : Fin 2) * 768 + 1 * d.val = d.val; rw [e2]; omega
    | ⟨1, _⟩ => show win2_1.index t (1 : Fin 2) * 768 + 1 * (j 1).val = win2_3.index t (1 : Fin 2) * 768 + 1 * (j 1).val; rw [e3, e6]
  have h2 : iblk2 V c 2 t (ix2 (0 : Fin 1) (j 1))
      = V c main_v11 (ix2 (0 : Fin 1) ((((cfg2.win 3).blk t).view.emb j) 1)) := by
    show V c main_v11 (((cfg2.win 2).blk t).view.emb (ix2 (0 : Fin 1) (j 1))) = _
    refine congrArg (V c main_v11) (funext fun a => Fin.ext ?_)
    match a with
    | ⟨0, _⟩ => show win2_2.index t (0 : Fin 2) * 1 + 1 * 0 = 0; rw [e4]
    | ⟨1, _⟩ => show win2_2.index t (1 : Fin 2) * 768 + 1 * (j 1).val = win2_3.index t (1 : Fin 2) * 768 + 1 * (j 1).val; rw [e5, e6]
  unfold proj
  rw [h2]
  exact congrArg (fun u : EReal => u + _) (Finset.sum_congr rfl fun d _ => by rw [h0 d, h1 d])

/-- An index of the array is in point `t`'s block iff each coordinate is in the block's range on its axis. -/
theorem mem_blk (t : Fin cfg2.N) (i : S8192x768.Idx) :
    i ∈ ((cfg2.win 3).blk t).view.set ↔ ∀ a : Fin 2, win2_3.index t a * S512x768.size a ≤ (i a).val
      ∧ (i a).val < win2_3.index t a * S512x768.size a + S512x768.size a := by
  show i ∈ ((View.whole main_v12).slice (win2_3.rect t)).set ↔ _
  rw [View.set_slice_whole, Rect.mem_set_unit]
  exact Iff.rfl

/-- The sixteen blocks of 512 rows fill the array: row `r` is in block `r / 512`. -/
theorem cover (i : S8192x768.Idx) :
    ∃ t : Fin cfg2.N, (cfg2.win 3).flush t = true ∧ i ∈ ((cfg2.win 3).blk t).view.set := by
  have hi0 : (i 0).val < 8192 := (i 0).isLt
  have hi1 : (i 1).val < 768 := (i 1).isLt
  obtain ⟨t, ht⟩ := idx_onto ⟨(i 0).val / 512, by omega⟩
  have q0 : win2_3.index t (0 : Fin 2) = (i 0).val / 512 := congrFun ht 0
  have q1 : win2_3.index t (1 : Fin 2) = 0 := congrFun ht 1
  refine ⟨t, flush2_3 t, ?_⟩
  rw [mem_blk]
  intro a
  match a with
  | ⟨0, _⟩ => show win2_3.index t (0 : Fin 2) * 512 ≤ (i 0).val ∧ (i 0).val < win2_3.index t (0 : Fin 2) * 512 + 512; omega
  | ⟨1, _⟩ => show win2_3.index t (1 : Fin 2) * 768 ≤ (i 1).val ∧ (i 1).val < win2_3.index t (1 : Fin 2) * 768 + 768; omega

/-- The array the region leaves: the projection of the array it found, whole. -/
theorem final (c : Dev nD) :
    (dat2 V c).arrAt 3 cfg2.N = proj (V c main_v10) (V c main_arg3) (V c main_v11) :=
  (dat2 V c).arrAt_eq_of_cover 3 _ (fun t _ => flushed_eq V c t) cover

end Cert.KernelIdeal.Region2

end
-- ==== Proof.HostGlue.lean ====
/-
  The kernel program's host operations between its three launches, read at an index.

  A token (b, s) of the [4, 2048, ·] arrays is row b * 2048 + s of the flat [8192, ·] arrays the launches work on: a
  reshape keeps an entry's row-major position. The fused projection's [8192, 2304] result is cut into its query, key
  and value arrays, columns 0–767, 768–1535 and 1536–2303, and each is viewed token by token again. A bias vector [n]
  is viewed as one row [1, n].
-/
import proofs.«113351_j20151986553284_2_alg».proof.Proof.KernelIdealFrame
import Idealize.ShloMosaic.Lib.ValueIdx
import Idealize.ShloMosaic.Lib.Pipeline.Value
import Idealize.ShloMosaic.Lib.StableHlo.Run

set_option maxRecDepth 16384

noncomputable section

namespace Cert.KernelIdeal.HostGlue

open Cert.KernelIdeal Cert.KernelIdeal.Gen Cert.KernelIdeal.GenP Idealize.ShloMosaic Idealize.ShloMosaic.ValueIdx Idealize.ShloMosaic.TcCoe Idealize.SL.Sem

variable (m : (ℓ : Loc nD τ sig) → Buf (Elt Ideal) ℓ) (ρ : Dev nD → PrngReg)

/-! ## Reshapes read at coordinates, over any array -/

section Layout

variable {α : Type}

/-- A [4, 2048, n] array viewed as [8192, n]: row b * 2048 + s is token (b, s). -/
theorem flatten_apply {n : ℕ} (x : (⟨3, ![4, 2048, n]⟩ : Shape).Idx → α)
    (h : (⟨3, ![4, 2048, n]⟩ : Shape).ShapeCasts ⟨2, ![8192, n]⟩) (b : Fin 4) (s : Fin 2048) (d : Fin n) :
    shapeCast ⟨2, ![8192, n]⟩ x h
        (ix2 (⟨b.val * 2048 + s.val, by have := b.isLt; have := s.isLt; omega⟩ : Fin 8192) d) = x (ix3 b s d) := by
  refine shapeCast_apply x h _ (ix3 b s d) ?_
  rw [Shape.rowMajor_val_two, Shape.rowMajor_val_three]
  rfl

/-- An [8192, n] array viewed as [4, 2048, n]: token (b, s) is row b * 2048 + s. -/
theorem unflatten_apply {n : ℕ} (x : (⟨2, ![8192, n]⟩ : Shape).Idx → α)
    (h : (⟨2, ![8192, n]⟩ : Shape).ShapeCasts ⟨3, ![4, 2048, n]⟩) (b : Fin 4) (s : Fin 2048) (d : Fin n) :
    shapeCast ⟨3, ![4, 2048, n]⟩ x h (ix3 b s d)
      = x (ix2 (⟨b.val * 2048 + s.val, by have := b.isLt; have := s.isLt; omega⟩ : Fin 8192) d) := by
  refine shapeCast_apply x h (ix3 b s d) _ ?_
  rw [Shape.rowMajor_val_two, Shape.rowMajor_val_three]
  rfl

/-- A vector [n] viewed as one row [1, n]. -/
theorem row_apply {n : ℕ} (x : (⟨1, ![n]⟩ : Shape).Idx → α)
    (h : (⟨1, ![n]⟩ : Shape).ShapeCasts ⟨2, ![1, n]⟩) (e : Fin n) :
    shapeCast ⟨2, ![1, n]⟩ x h (ix2 (0 : Fin 1) e) = x (ix1 e) := by
  refine shapeCast_apply x h _ (ix1 e) ?_
  rw [Shape.rowMajor_val_two, Shape.rowMajor_val_one]
  show e.val = 0 * n + e.val
  omega

/-- Columns off, off + 1, … of an [r, n] array, w of them: column e of the cut is column off + e of the array. -/
theorem cols_apply {r n w : ℕ} (off : ℕ) (x : (⟨2, ![r, n]⟩ : Shape).Idx → α)
    (h : (⟨2, ![r, n]⟩ : Shape).Slices ![0, off] ⟨2, ![r, w]⟩) (p : Fin r) (e : Fin w) (q : Fin n)
    (hq : q.val = off + e.val) :
    extractStridedSlice ⟨2, ![r, w]⟩ ![0, off] x h (ix2 p e) = x (ix2 p q) := by
  refine extractStridedSlice_apply ![0, off] x h (ix2 p e) (ix2 p q) fun a => ?_
  match a with
  | ⟨0, _⟩ => show p.val = 0 + p.val; omega
  | ⟨1, _⟩ => exact hq

end Layout

/-! ## Before the first launch -/

/-- The tokens, flattened: row b * 2048 + s of the first launch's input is token (b, s) of the program's argument. -/
theorem v0_apply (c : Dev nD) (b : Fin 4) (s : Fin 2048) (d : Fin 768) :
    V1 m ρ c main_v0 (ix2 (⟨b.val * 2048 + s.val, by have := b.isLt; have := s.isLt; omega⟩ : Fin 8192) d) = m ((c : Thread nD τ).loc main_arg0) (ix3 b s d) := by
  have e : (V1 m ρ c main_v0 : S8192x768.Idx → EReal)
      = shapeCast S8192x768 (m ((c : Thread nD τ).loc main_arg0)) shapeCasts_S4x2048x768_S8192x768 := by
    show StableHlo.after hostOps0 (W0 m ρ c) (Proc.devRef .tc main_v0) = _
    after_results
    rfl
  rw [e]
  exact flatten_apply _ _ b s d

/-- The fused projection's matrix reaches the first launch as the program's argument: nothing before it writes it. -/
theorem v1_wa (c : Dev nD) : V1 m ρ c main_arg1 = m ((c : Thread nD τ).loc main_arg1) :=
  calc W1 m ρ c (Proc.devRef .tc main_arg1)
    _ = W0 m ρ c (Proc.devRef .tc main_arg1) := StableHlo.after_of_forall_not_mem (b := Proc.devRef .tc main_arg1) _ _ (List.forall_iff_forall_mem.mp (by
          simp only [hostOps0, List.Forall, StableHlo.reshape_writes, Finset.mem_singleton]
          repeat' apply And.intro
          all_goals exact StableHlo.devRef_ne_of_ne (by decide)))
    _ = m ((c : Thread nD τ).loc main_arg1) := rfl

/-- The fused projection's bias as one row: entry e of the row is entry e of the program's argument. -/
theorem v1_bias (c : Dev nD) (e : Fin 2304) : V1 m ρ c main_v1 (ix2 (0 : Fin 1) e) = m ((c : Thread nD τ).loc main_arg2) (ix1 e) := by
  have h : (V1 m ρ c main_v1 : S1x2304.Idx → EReal)
      = shapeCast S1x2304 (m ((c : Thread nD τ).loc main_arg2)) shapeCasts_S2304_S1x2304 := by
    show StableHlo.after hostOps0 (W0 m ρ c) (Proc.devRef .tc main_v1) = _
    after_results
    rfl
  rw [h]
  exact row_apply _ _ e

/-! ## Between the first launch and the second -/

/-- The queries: token (b, s), feature e, is column e of row b * 2048 + s of the fused projection. -/
theorem v6_apply (c : Dev nD) (b : Fin 4) (s : Fin 2048) (e : Fin 768) :
    V3 m ρ c main_v6 (ix3 b s e) = W2 m ρ c (Proc.devRef .tc main_v2) (ix2 (⟨b.val * 2048 + s.val, by have := b.isLt; have := s.isLt; omega⟩ : Fin 8192) (⟨e.val, by have := e.isLt; omega⟩ : Fin 2304)) := by
  have h : (V3 m ρ c main_v6 : S4x2048x768.Idx → EReal)
      = shapeCast S4x2048x768 (extractStridedSlice S8192x768 ![0, 0]
          (W2 m ρ c (Proc.devRef .tc main_v2) : S8192x2304.Idx → EReal) slices_S8192x2304_S8192x768_0_0)
          shapeCasts_S8192x768_S4x2048x768 := by
    show StableHlo.after hostOps1 (W2 m ρ c) (Proc.devRef .tc main_v6) = _
    after_results
    rfl
  rw [h, unflatten_apply]
  exact cols_apply 0 _ _ _ e _ (by show e.val = 0 + e.val; omega)

/-- The keys: token (b, s), feature e, is column 768 + e of row b * 2048 + s of the fused projection. -/
theorem v7_apply (c : Dev nD) (b : Fin 4) (s : Fin 2048) (e : Fin 768) :
    V3 m ρ c main_v7 (ix3 b s e) = W2 m ρ c (Proc.devRef .tc main_v2) (ix2 (⟨b.val * 2048 + s.val, by have := b.isLt; have := s.isLt; omega⟩ : Fin 8192) (⟨768 + e.val, by have := e.isLt; omega⟩ : Fin 2304)) := by
  have h : (V3 m ρ c main_v7 : S4x2048x768.Idx → EReal)
      = shapeCast S4x2048x768 (extractStridedSlice S8192x768 ![0, 768]
          (W2 m ρ c (Proc.devRef .tc main_v2) : S8192x2304.Idx → EReal) slices_S8192x2304_S8192x768_0_768)
          shapeCasts_S8192x768_S4x2048x768 := by
    show StableHlo.after hostOps1 (W2 m ρ c) (Proc.devRef .tc main_v7) = _
    after_results
    rfl
  rw [h, unflatten_apply]
  exact cols_apply 768 _ _ _ e _ rfl

/-- The values: token (b, s), feature e, is column 1536 + e of row b * 2048 + s of the fused projection. -/
theorem v8_apply (c : Dev nD) (b : Fin 4) (s : Fin 2048) (e : Fin 768) :
    V3 m ρ c main_v8 (ix3 b s e) = W2 m ρ c (Proc.devRef .tc main_v2) (ix2 (⟨b.val * 2048 + s.val, by have := b.isLt; have := s.isLt; omega⟩ : Fin 8192) (⟨1536 + e.val, by have := e.isLt; omega⟩ : Fin 2304)) := by
  have h : (V3 m ρ c main_v8 : S4x2048x768.Idx → EReal)
      = shapeCast S4x2048x768 (extractStridedSlice S8192x768 ![0, 1536]
          (W2 m ρ c (Proc.devRef .tc main_v2) : S8192x2304.Idx → EReal) slices_S8192x2304_S8192x768_0_1536)
          shapeCasts_S8192x768_S4x2048x768 := by
    show StableHlo.after hostOps1 (W2 m ρ c) (Proc.devRef .tc main_v8) = _
    after_results
    rfl
  rw [h, unflatten_apply]
  exact cols_apply 1536 _ _ _ e _ rfl

/-! ## Between the second launch and the third -/

/-- The attention's result, flattened: row b * 2048 + s of the third launch's input is token (b, s) of it. -/
theorem v10_apply (c : Dev nD) (b : Fin 4) (s : Fin 2048) (d : Fin 768) :
    V5 m ρ c main_v10 (ix2 (⟨b.val * 2048 + s.val, by have := b.isLt; have := s.isLt; omega⟩ : Fin 8192) d) = W4 m ρ c (Proc.devRef .tc main_v9) (ix3 b s d) := by
  have h : (V5 m ρ c main_v10 : S8192x768.Idx → EReal)
      = shapeCast S8192x768 (W4 m ρ c (Proc.devRef .tc main_v9) : S4x2048x768.Idx → EReal)
          shapeCasts_S4x2048x768_S8192x768 := by
    show StableHlo.after hostOps2 (W4 m ρ c) (Proc.devRef .tc main_v10) = _
    after_results
    rfl
  rw [h]
  exact flatten_apply _ _ b s d

/-- The last projection's matrix reaches the third launch as the program's argument: no host operation writes it and
    it is no array of the first two launches. -/
theorem v5_wp (c : Dev nD) : V5 m ρ c main_arg3 = m ((c : Thread nD τ).loc main_arg3) :=
  calc W5 m ρ c (Proc.devRef .tc main_arg3)
    _ = W4 m ρ c (Proc.devRef .tc main_arg3) := StableHlo.after_of_forall_not_mem (b := Proc.devRef .tc main_arg3) _ _ (List.forall_iff_forall_mem.mp (by
          simp only [hostOps2, List.Forall, StableHlo.reshape_writes, Finset.mem_singleton]
          repeat' apply And.intro
          all_goals exact StableHlo.devRef_ne_of_ne (by decide)))
    _ = W3 m ρ c (Proc.devRef .tc main_arg3) := W4_of_ne m ρ c main_arg3 (by decide)
    _ = W2 m ρ c (Proc.devRef .tc main_arg3) := StableHlo.after_of_forall_not_mem (b := Proc.devRef .tc main_arg3) _ _ (List.forall_iff_forall_mem.mp (by
          simp only [hostOps1, List.Forall, StableHlo.unary_writes, StableHlo.reshape_writes, Finset.mem_singleton]
          repeat' apply And.intro
          all_goals exact StableHlo.devRef_ne_of_ne (by decide)))
    _ = W1 m ρ c (Proc.devRef .tc main_arg3) := W2_of_ne m ρ c main_arg3 (by decide)
    _ = W0 m ρ c (Proc.devRef .tc main_arg3) := StableHlo.after_of_forall_not_mem (b := Proc.devRef .tc main_arg3) _ _ (List.forall_iff_forall_mem.mp (by
          simp only [hostOps0, List.Forall, StableHlo.reshape_writes, Finset.mem_singleton]
          repeat' apply And.intro
          all_goals exact StableHlo.devRef_ne_of_ne (by decide)))
    _ = m ((c : Thread nD τ).loc main_arg3) := rfl

/-- The last projection's bias reaches the second stretch of host operations as the program's argument. -/
theorem W4_bias (c : Dev nD) : W4 m ρ c (Proc.devRef .tc main_arg4) = m ((c : Thread nD τ).loc main_arg4) :=
  calc W4 m ρ c (Proc.devRef .tc main_arg4)
    _ = W3 m ρ c (Proc.devRef .tc main_arg4) := W4_of_ne m ρ c main_arg4 (by decide)
    _ = W2 m ρ c (Proc.devRef .tc main_arg4) := StableHlo.after_of_forall_not_mem (b := Proc.devRef .tc main_arg4) _ _ (List.forall_iff_forall_mem.mp (by
          simp only [hostOps1, List.Forall, StableHlo.unary_writes, StableHlo.reshape_writes, Finset.mem_singleton]
          repeat' apply And.intro
          all_goals exact StableHlo.devRef_ne_of_ne (by decide)))
    _ = W1 m ρ c (Proc.devRef .tc main_arg4) := W2_of_ne m ρ c main_arg4 (by decide)
    _ = W0 m ρ c (Proc.devRef .tc main_arg4) := StableHlo.after_of_forall_not_mem (b := Proc.devRef .tc main_arg4) _ _ (List.forall_iff_forall_mem.mp (by
          simp only [hostOps0, List.Forall, StableHlo.reshape_writes, Finset.mem_singleton]
          repeat' apply And.intro
          all_goals exact StableHlo.devRef_ne_of_ne (by decide)))
    _ = m ((c : Thread nD τ).loc main_arg4) := rfl

/-- The last projection's bias as one row: entry e of the row is entry e of the program's argument. -/
theorem v5_bias (c : Dev nD) (e : Fin 768) : V5 m ρ c main_v11 (ix2 (0 : Fin 1) e) = m ((c : Thread nD τ).loc main_arg4) (ix1 e) := by
  have h : (V5 m ρ c main_v11 : S1x768.Idx → EReal)
      = shapeCast S1x768 (W4 m ρ c (Proc.devRef .tc main_arg4) : S768.Idx → EReal) shapeCasts_S768_S1x768 := by
    show StableHlo.after hostOps2 (W4 m ρ c) (Proc.devRef .tc main_v11) = _
    after_results
    rfl
  rw [h, row_apply]
  exact congrFun (W4_bias m ρ c) (ix1 e)

/-! ## After the third launch -/

/-- The program's result: token (b, s) is row b * 2048 + s of the third launch's output. -/
theorem v13_apply (c : Dev nD) (b : Fin 4) (s : Fin 2048) (e : Fin 768) :
    W7 m ρ c (Proc.devRef .tc main_v13) (ix3 b s e) = W6 m ρ c (Proc.devRef .tc main_v12) (ix2 (⟨b.val * 2048 + s.val, by have := b.isLt; have := s.isLt; omega⟩ : Fin 8192) e) := by
  have h : (W7 m ρ c (Proc.devRef .tc main_v13) : S4x2048x768.Idx → EReal)
      = shapeCast S4x2048x768 (W6 m ρ c (Proc.devRef .tc main_v12) : S8192x768.Idx → EReal)
          shapeCasts_S8192x768_S4x2048x768 := by
    show StableHlo.after hostOps3 (W6 m ρ c) (Proc.devRef .tc main_v13) = _
    after_results
    rfl
  rw [h]
  exact unflatten_apply _ _ b s e

end Cert.KernelIdeal.HostGlue

end
-- ==== Proof.KernelValue.lean ====
/-
  The kernel program's result array is the specification of the attention block applied to the argument arrays.

  Walking back from the last boundary: the result is a reshape of region 2's output; region 2 projects the rows of
  the reshaped attention array; the attention array is region 1's output on the query, key and value arrays, which
  are the three column ranges of region 0's output, reshaped; and region 0 projects the rows of the reshaped tokens.
  A token `(b, s)` is row `2048 b + s` of every flat array on the way.
-/
import proofs.«113351_j20151986553284_2_alg».proof.Proof.Region0
import proofs.«113351_j20151986553284_2_alg».proof.Proof.Region1
import proofs.«113351_j20151986553284_2_alg».proof.Proof.Region2
import proofs.«113351_j20151986553284_2_alg».proof.Proof.HostGlue
import proofs.«113351_j20151986553284_2_alg».proof.Proof.Spec

set_option maxRecDepth 16384

noncomputable section

open scoped BigOperators

namespace Cert.KernelIdeal.KernelValue

open Cert.KernelIdeal Cert.KernelIdeal.Gen Cert.KernelIdeal.GenP Cert.KernelIdeal.HostGlue
open Idealize.ShloMosaic Idealize.ShloMosaic.ValueIdx Idealize.ShloMosaic.TcCoe Idealize.SL.Sem

variable (m : (ℓ : Loc nD τ sig) → Buf (Elt Ideal) ℓ) (ρ : Dev nD → PrngReg)

/-- The fused projection at explicit coordinates. -/
theorem proj0_apply (A : S8192x768.Idx → EReal) (W : S768x2304.Idx → EReal) (B : S1x2304.Idx → EReal)
    (r : Fin 8192) (e : Fin 2304) :
    Region0.proj A W B (ix2 r e) = (∑ d : Fin 768, A (ix2 r d) * W (ix2 d e)) + B (ix2 (0 : Fin 1) e) := rfl

/-- The output projection at explicit coordinates. -/
theorem proj2_apply (A : S8192x768.Idx → EReal) (W : S768x768.Idx → EReal) (B : S1x768.Idx → EReal)
    (r : Fin 8192) (e : Fin 768) :
    Region2.proj A W B (ix2 r e) = (∑ d : Fin 768, A (ix2 r d) * W (ix2 d e)) + B (ix2 (0 : Fin 1) e) := rfl

/-- Row `2048 b + s` of region 0's output is token `(b, s)`'s fused projection. -/
theorem fused_eq (c : Dev nD) (b : Fin 4) (s : Fin 2048) (e : Fin 2304) :
    W2 m ρ c (Proc.devRef .tc main_v2)
        (ix2 (⟨b.val * 2048 + s.val, by have := b.isLt; have := s.isLt; omega⟩ : Fin 8192) e)
      = Cert.Attn.qkv (m ((c : Thread nD τ).loc main_arg0)) (m ((c : Thread nD τ).loc main_arg1))
          (m ((c : Thread nD τ).loc main_arg2)) b s e := by
  rw [show W2 m ρ c (Proc.devRef .tc main_v2) = _ from W2_arr m ρ c 3, Region0.final]
  refine (proj0_apply _ _ _ _ _).trans ?_
  rw [v1_wa, v1_bias]
  unfold Cert.Attn.qkv Cert.Attn.linear
  exact congrArg (fun u : EReal => u + _) (Finset.sum_congr rfl fun d _ => by rw [v0_apply])

/-- The query array region 1 finds is the tokens' query features, -/
theorem query_eq (c : Dev nD) :
    (fun (b : Fin 4) (s : Fin 2048) (e : Fin 768) => V3 m ρ c main_v6 (ix3 b s e))
      = Cert.Attn.qOf (m ((c : Thread nD τ).loc main_arg0)) (m ((c : Thread nD τ).loc main_arg1))
          (m ((c : Thread nD τ).loc main_arg2)) :=
  funext fun b => funext fun s => funext fun e => (v6_apply m ρ c b s e).trans (fused_eq m ρ c b s _)

/-- the key array their key features, -/
theorem key_eq (c : Dev nD) :
    (fun (b : Fin 4) (s : Fin 2048) (e : Fin 768) => V3 m ρ c main_v7 (ix3 b s e))
      = Cert.Attn.kOf (m ((c : Thread nD τ).loc main_arg0)) (m ((c : Thread nD τ).loc main_arg1))
          (m ((c : Thread nD τ).loc main_arg2)) :=
  funext fun b => funext fun s => funext fun e => (v7_apply m ρ c b s e).trans (fused_eq m ρ c b s _)

/-- and the value array their value features. -/
theorem value_eq (c : Dev nD) :
    (fun (b : Fin 4) (s : Fin 2048) (e : Fin 768) => V3 m ρ c main_v8 (ix3 b s e))
      = Cert.Attn.vOf (m ((c : Thread nD τ).loc main_arg0)) (m ((c : Thread nD τ).loc main_arg1))
          (m ((c : Thread nD τ).loc main_arg2)) :=
  funext fun b => funext fun s => funext fun e => (v8_apply m ρ c b s e).trans (fused_eq m ρ c b s _)

/-- Region 1's output at token `(b, s)`, feature `d`: the heads' outputs side by side. -/
theorem ctx_eq (c : Dev nD) (b : Fin 4) (s : Fin 2048) (d : Fin 768) :
    W4 m ρ c (Proc.devRef .tc main_v9) (ix3 b s d)
      = Cert.Attn.ctx
          (Cert.Attn.qOf (m ((c : Thread nD τ).loc main_arg0)) (m ((c : Thread nD τ).loc main_arg1)) (m ((c : Thread nD τ).loc main_arg2)))
          (Cert.Attn.kOf (m ((c : Thread nD τ).loc main_arg0)) (m ((c : Thread nD τ).loc main_arg1)) (m ((c : Thread nD τ).loc main_arg2)))
          (Cert.Attn.vOf (m ((c : Thread nD τ).loc main_arg0)) (m ((c : Thread nD τ).loc main_arg1)) (m ((c : Thread nD τ).loc main_arg2)))
          b s d := by
  rw [show W4 m ρ c (Proc.devRef .tc main_v9) = _ from W4_arr m ρ c 3, Region1.final]
  unfold Region1.attn
  rw [query_eq, key_eq, value_eq]

/-- The result array after the run is the specification of the launch memory's argument arrays. -/
theorem result_eq (c : Dev nD) :
    W7 m ρ c (Proc.devRef .tc main_v13)
      = Cert.Attn.out (m ((c : Thread nD τ).loc main_arg0)) (m ((c : Thread nD τ).loc main_arg1))
          (m ((c : Thread nD τ).loc main_arg2)) (m ((c : Thread nD τ).loc main_arg3))
          (m ((c : Thread nD τ).loc main_arg4)) := by
  funext i
  obtain ⟨b, s, e, rfl⟩ : ∃ (b : Fin 4) (s : Fin 2048) (e : Fin 768), i = ix3 b s e := ⟨i 0, i 1, i 2, eq_ix3 i⟩
  rw [v13_apply, show W6 m ρ c (Proc.devRef .tc main_v12) = _ from W6_arr m ρ c 3, Region2.final]
  refine (proj2_apply _ _ _ _ _).trans ?_
  rw [v5_wp, v5_bias]
  unfold Cert.Attn.out Cert.Attn.linear
  exact congrArg (fun u : EReal => u + _) (Finset.sum_congr rfl fun d _ => by rw [v10_apply, ctx_eq])

end Cert.KernelIdeal.KernelValue

end
-- ==== Proof.RefLogits.lean ====
/-
  The reference program's projections, head split and masked logits, read index by index.

  The program multiplies each token's 768 features by a 768 × 2304 matrix and adds a bias; the three thirds of the
  2304 columns are the token's query, key and value. Each third is viewed as 12 heads of 64 features (feature
  `h * 64 + d` is entry `d` of head `h`) and transposed so that the head comes before the token. The raw score of query
  token `i` against key token `j` in head `h` is the inner product of the two 64-vectors. The causal mask is a
  lower-triangular array of ones and zeros built from two counters compared as signed 32-bit words; the counters stay
  below 2048, so the signed comparison is the comparison of the numbers. The masked logit is
  `score * mask + fill * (1 - mask)`: the score where the key is not after the query, the fill word elsewhere.
-/
import proofs.«113351_j20151986553284_2_alg».proof.Proof.Gen.ReferenceIdeal.Read
import proofs.«113351_j20151986553284_2_alg».proof.Proof.Spec
import Idealize.ShloMosaic.Lib.Affine

noncomputable section

namespace Cert.ReferenceIdeal.RefLogits

open Cert.ReferenceIdeal Cert.ReferenceIdeal.Gen Cert.ReferenceIdeal.Read Idealize.ShloMosaic Idealize.ShloMosaic.ValueIdx

variable (x0 : (⟨S4x2048x768, .f32⟩ : BufTy).Contents (Elt Ideal)) (x1 : (⟨S768x2304, .f32⟩ : BufTy).Contents (Elt Ideal))
  (x2 : (⟨S2304, .f32⟩ : BufTy).Contents (Elt Ideal))

/-- The fused projection: column `e` of token `(b, s)` is the token's row times the matrix, plus the bias. -/
theorem proj_eq (b : Fin 4) (s : Fin 2048) (e : Fin 2304) :
    val_main_v3 (F := Ideal) x0 x1 x2 (ix3 b s e) = Cert.Attn.qkv x0 x1 x2 b s e := by
  rw [val_main_v3_apply, val_main_v0_apply, val_main_v2_apply, val_main_v1_apply]
  unfold Cert.Attn.qkv Cert.Attn.linear
  rw [Ideal.addf_def]
  have e1 : ∀ k : Fin 768, lidx_main_v0 (ix3 b s e) k = ix3 b s k := fun k => funext fun a => Fin.ext (by
    match a with | ⟨0, _⟩ => rfl | ⟨1, _⟩ => rfl | ⟨2, _⟩ => rfl)
  have e2 : ∀ k : Fin 768, ridx_main_v0 (ix3 b s e) k = ix2 k e := fun k => funext fun a => Fin.ext (by
    match a with | ⟨0, _⟩ => rfl | ⟨1, _⟩ => rfl)
  have e3 : idx_main_v1 (idx_main_v2 (ix3 b s e)) = ix1 e := funext fun a => Fin.ext (by
    match a with | ⟨0, _⟩ => rfl)
  simp only [e1, e2, e3]

/-- The row-major position of `(b, s, h, d)` in `[4, 2048, 12, 64]` is that of `(b, s, h * 64 + d)` in `[4, 2048, 768]`. -/
theorem split_idx (b : Fin 4) (s : Fin 2048) (h : Fin 12) (d : Fin 64) :
    idx_main_v7 (ix4 b s h d) = ix3 b s (Cert.Attn.col h d) := funext fun a => Fin.ext (by
  have hb := b.isLt; have hs := s.isLt; have hh := h.isLt; have hd := d.isLt
  match a with
  | ⟨0, _⟩ => show (((b.val * 2048 + s.val) * 12 + h.val) * 64 + d.val) / 1572864 = b.val; omega
  | ⟨1, _⟩ => show (((b.val * 2048 + s.val) * 12 + h.val) * 64 + d.val) / 768 % 2048 = s.val; omega
  | ⟨2, _⟩ => show (((b.val * 2048 + s.val) * 12 + h.val) * 64 + d.val) % 768 = h.val * 64 + d.val; omega)

theorem swap_idx (b : Fin 4) (h : Fin 12) (s : Fin 2048) (d : Fin 64) :
    idx_main_v8 (ix4 b h s d) = ix4 b s h d := funext fun a => Fin.ext (by
  match a with | ⟨0, _⟩ => rfl | ⟨1, _⟩ => rfl | ⟨2, _⟩ => rfl | ⟨3, _⟩ => rfl)

/-- The queries, head by head: entry `(b, h, i, d)` is feature `h * 64 + d` of token `(b, i)`'s query. -/
theorem queries_eq (b : Fin 4) (h : Fin 12) (i : Fin 2048) (d : Fin 64) :
    val_main_v8 (F := Ideal) x0 x1 x2 (ix4 b h i d) = Cert.Attn.qOf x0 x1 x2 b i (Cert.Attn.col h d) := by
  rw [val_main_v8_apply, swap_idx, val_main_v7_apply, split_idx, val_main_v4_apply]
  have e : idx_main_v4 (ix3 b i (Cert.Attn.col h d)) = ix3 b i (⟨(Cert.Attn.col h d).val, by have := (Cert.Attn.col h d).isLt; omega⟩ : Fin 2304) :=
    funext fun a => Fin.ext (by match a with | ⟨0, _⟩ => rfl | ⟨1, _⟩ => rfl | ⟨2, _⟩ => rfl)
  rw [e, proj_eq]
  rfl

/-- The keys, head by head. -/
theorem keys_eq (b : Fin 4) (h : Fin 12) (j : Fin 2048) (d : Fin 64) :
    val_main_v10 (F := Ideal) x0 x1 x2 (ix4 b h j d) = Cert.Attn.kOf x0 x1 x2 b j (Cert.Attn.col h d) := by
  rw [val_main_v10_apply, show idx_main_v10 (ix4 b h j d) = ix4 b j h d from swap_idx b h j d, val_main_v9_apply,
    show idx_main_v9 (ix4 b j h d) = ix3 b j (Cert.Attn.col h d) from split_idx b j h d, val_main_v5_apply]
  have e : idx_main_v5 (ix3 b j (Cert.Attn.col h d)) = ix3 b j (⟨768 + (Cert.Attn.col h d).val, by have := (Cert.Attn.col h d).isLt; omega⟩ : Fin 2304) :=
    funext fun a => Fin.ext (by match a with | ⟨0, _⟩ => rfl | ⟨1, _⟩ => rfl | ⟨2, _⟩ => rfl)
  rw [e, proj_eq]
  rfl

/-- The values, head by head. -/
theorem values_eq (x0 : (⟨S4x2048x768, .f32⟩ : BufTy).Contents (Elt Ideal)) (x1 : (⟨S768x2304, .f32⟩ : BufTy).Contents (Elt Ideal))
    (x2 : (⟨S2304, .f32⟩ : BufTy).Contents (Elt Ideal))
    (b : Fin 4) (h : Fin 12) (j : Fin 2048) (d : Fin 64) :
    val_main_v12 (F := Ideal) x0 x1 x2 (ix4 b h j d) = Cert.Attn.vOf x0 x1 x2 b j (Cert.Attn.col h d) := by
  rw [val_main_v12_apply, show idx_main_v12 (ix4 b h j d) = ix4 b j h d from swap_idx b h j d, val_main_v11_apply,
    show idx_main_v11 (ix4 b j h d) = ix3 b j (Cert.Attn.col h d) from split_idx b j h d, val_main_v6_apply]
  have e : idx_main_v6 (ix3 b j (Cert.Attn.col h d)) = ix3 b j (⟨1536 + (Cert.Attn.col h d).val, by have := (Cert.Attn.col h d).isLt; omega⟩ : Fin 2304) :=
    funext fun a => Fin.ext (by match a with | ⟨0, _⟩ => rfl | ⟨1, _⟩ => rfl | ⟨2, _⟩ => rfl)
  rw [e, proj_eq]
  rfl

/-- The raw scores: entry `(b, h, i, j)` is the inner product of query `i`'s and key `j`'s 64 features of head `h`. -/
theorem scores_eq (b : Fin 4) (h : Fin 12) (i j : Fin 2048) :
    val_main_v13 (F := Ideal) x0 x1 x2 (ix4 b h i j)
      = ∑ d : Fin 64, Cert.Attn.qOf x0 x1 x2 b i (Cert.Attn.col h d) * Cert.Attn.kOf x0 x1 x2 b j (Cert.Attn.col h d) := by
  rw [val_main_v13_apply]
  refine Finset.sum_congr rfl fun d _ => ?_
  have el : lidx_main_v13 (ix4 b h i j) d = ix4 b h i d := funext fun a => Fin.ext (by
    match a with | ⟨0, _⟩ => rfl | ⟨1, _⟩ => rfl | ⟨2, _⟩ => rfl | ⟨3, _⟩ => rfl)
  have er : ridx_main_v13 (ix4 b h i j) d = ix4 b h j d := funext fun a => Fin.ext (by
    match a with | ⟨0, _⟩ => rfl | ⟨1, _⟩ => rfl | ⟨2, _⟩ => rfl | ⟨3, _⟩ => rfl)
  rw [el, er, queries_eq, keys_eq]

/-- A 32-bit word of a number below 2048 reads, as a signed integer, as that number. -/
theorem toInt_word (a : Nat) (h : a < 2048) : (BitVec.ofNat 32 a).toInt = (a : Int) := by
  have h1 : (BitVec.ofNat 32 a).toNat = a := by rw [BitVec.toNat_ofNat]; exact Nat.mod_eq_of_lt (by omega)
  rw [BitVec.toInt_eq_toNat_of_lt (by rw [h1]; omega), h1]

/-- The lower-triangular mask: the word of 1.0 on and below the diagonal, the zero word above it. -/
theorem mask_eq (i j : Fin 2048) :
    val_main_v15 (F := Ideal) (ix2 i j)
      = if j.val ≤ i.val then Ideal.ofBits .f32 0x3F800000#32 else Ideal.ofBits .f32 0x00000000#32 := by
  rw [val_main_v15_apply, val_main_call0_v4_apply, val_main_call0_v2_apply, val_main_call0_v0_apply,
    val_main_call0_v1_apply, val_main_call0_c_apply, val_main_call0_v3_apply, val_main_v14_apply, val_main_cst_apply,
    val_main_call0_v5_apply, val_main_call0_cst_apply]
  have hc : IntOp.cmpi .sge (IntOp.addi (BitVec.ofNat 32 i.val) 0#32) (BitVec.ofNat 32 j.val) = 1#1 ↔ j.val ≤ i.val := by
    rw [IntOp.cmpi_sge]
    unfold IntOp.addi
    rw [BitVec.add_zero, toInt_word _ i.isLt, toInt_word _ j.isLt]
    exact Int.ofNat_le
  by_cases hji : j.val ≤ i.val
  · rw [if_pos hji]; exact if_pos (hc.mpr hji)
  · rw [if_neg hji]; exact if_neg (fun hh => hji (hc.mp hh))

/-- The word `0x3F800000` is the number one. -/
theorem one_eq : Ideal.ofBits .f32 0x3F800000#32 = (1 : EReal) := by
  simp [Ideal.ofBits, Ideal.ieee]
  rw [← EReal.coe_mul]
  norm_num

theorem one_sub_one : (1 : EReal) - 1 = 0 := by
  rw [← EReal.coe_one, ← EReal.coe_sub, sub_self, EReal.coe_zero]

/-- The mask spread over batches and heads. -/
theorem mask4_eq (b : Fin 4) (h : Fin 12) (i j : Fin 2048) :
    val_main_v17 (F := Ideal) (ix4 b h i j) = val_main_v15 (F := Ideal) (ix2 i j) := by
  rw [val_main_v17_apply, val_main_v16_apply]
  exact congrArg _ (funext fun a => Fin.ext (by match a with | ⟨0, _⟩ => rfl | ⟨1, _⟩ => rfl))

/-- The filling term: the fill word times one minus the mask, spread over batches and heads. -/
theorem fillpart_eq (b : Fin 4) (h : Fin 12) (i j : Fin 2048) :
    val_main_v24 (F := Ideal) (ix4 b h i j)
      = Cert.Attn.fill * (Ideal.ofBits .f32 0x3F800000#32 - val_main_v15 (F := Ideal) (ix2 i j)) := by
  rw [val_main_v24_apply, val_main_v23_apply]
  have e : idx_main_v23 (idx_main_v24 (ix4 b h i j)) = ix2 i j := funext fun a => Fin.ext (by
    match a with | ⟨0, _⟩ => rfl | ⟨1, _⟩ => rfl)
  rw [e, val_main_v22_apply, val_main_v21_apply, val_main_cst_1_apply, val_main_v20_apply, val_main_v19_apply,
    val_main_cst_0_apply]
  rfl

/-- The masked logits: the inner product where the key is not after the query, the fill word elsewhere.
    On and below the diagonal the mask is one, so the entry is `s * 1 + fill * (1 - 1) = s`; above it the mask is
    zero and the entry is `s * 0 + fill * (1 - 0) = fill`. Both hold for every extended real `s`. -/
theorem logits_eq (x0 : (⟨S4x2048x768, .f32⟩ : BufTy).Contents (Elt Ideal)) (x1 : (⟨S768x2304, .f32⟩ : BufTy).Contents (Elt Ideal))
    (x2 : (⟨S2304, .f32⟩ : BufTy).Contents (Elt Ideal))
    (b : Fin 4) (h : Fin 12) (i j : Fin 2048) :
    val_main_v25 (F := Ideal) x0 x1 x2 (ix4 b h i j)
      = Cert.Attn.logitRow (fun d => Cert.Attn.qOf x0 x1 x2 b i (Cert.Attn.col h d))
          (fun j' d => Cert.Attn.kOf x0 x1 x2 b j' (Cert.Attn.col h d)) i.val j := by
  rw [val_main_v25_apply, val_main_v18_apply, scores_eq, mask4_eq, fillpart_eq, mask_eq, Ideal.addf_def, Ideal.mulf_def]
  unfold Cert.Attn.logitRow
  by_cases hji : j.val ≤ i.val
  · simp only [if_pos hji]
    rw [one_eq, mul_one, one_sub_one, mul_zero, add_zero]
  · simp only [if_neg hji]
    rw [Ideal.ofBits_zero_f32, one_eq, mul_zero, sub_zero, mul_one, zero_add]

end Cert.ReferenceIdeal.RefLogits

end
-- ==== Proof.RefTail.lean ====
/-
  The reference program's tail, read index by index on the extended reals: from the masked logits (stage 25) and
  the value heads (stage 12) to the program's result (stage 43).

  Stage by stage, at coordinates (b, h, i, j): the row maximum of the logits (a fold of max from minus infinity, then
  one more max with minus infinity, which changes nothing), broadcast back along the row; the exponential of each
  logit's distance below it; the row's sum of those, broadcast back; the quotient; the weighted sum of the value
  vectors; the heads laid side by side again (a transpose and a reshape: feature e of a token is entry e % 64 of
  head e / 64); and the last projection with its bias.
-/
import proofs.«113351_j20151986553284_2_alg».proof.Proof.Gen.ReferenceIdeal.Read
import proofs.«113351_j20151986553284_2_alg».proof.Proof.Spec
import Idealize.ShloMosaic.PureOps.Ideal.Laws
import Idealize.ShloMosaic.Lib.ValueIdx

noncomputable section

open scoped BigOperators

namespace Cert.ReferenceIdeal.RefTail

open Cert.ReferenceIdeal Cert.ReferenceIdeal.Gen Cert.ReferenceIdeal.Read Idealize.ShloMosaic Idealize.ShloMosaic.ValueIdx

/-- In a linear order, a fold of max that starts from w is at least w, so one more max with w changes nothing. -/
theorem max_fold_max_self {α ι : Type*} [LinearOrder α] (s : Finset ι) (w : α) (f : ι → α) :
    max w (s.fold max w f) = s.fold max w f :=
  max_eq_right ((Finset.le_fold_max w).2 (Or.inl le_rfl))

section Stages

variable (x0 : (⟨S4x2048x768, .f32⟩ : BufTy).Contents (Elt Ideal)) (x1 : (⟨S768x2304, .f32⟩ : BufTy).Contents (Elt Ideal))
  (x2 : (⟨S2304, .f32⟩ : BufTy).Contents (Elt Ideal))

/-- The reduced index (b, h, i) with the key coordinate k put back is (b, h, i, k). -/
theorem lift_ix3 (hR : S4x12x2048x2048.Reduces [3] S4x12x2048) (b : Fin 4) (h : Fin 12) (i : Fin 2048)
    (k : Fin (S4x12x2048x2048.size 3)) : hR.lift (ix3 b h i) k = ix4 b h i (⟨k.val, k.isLt⟩ : Fin 2048) := by
  funext c; apply Fin.ext
  fin_cases c <;> rfl

/-- Stage 26, the row maximum: the fold of max from minus infinity over the row's logits. -/
theorem v26_at (b : Fin 4) (h : Fin 12) (i : Fin 2048) :
    val_main_v26 (F := Ideal) x0 x1 x2 (ix3 b h i)
      = (Finset.univ : Finset (Fin 2048)).fold max (Ideal.ofBits .f32 0xFF800000#32)
          (fun k => val_main_v25 (F := Ideal) x0 x1 x2 (ix4 b h i k)) := by
  have hR : S4x12x2048x2048.Reduces [3] S4x12x2048 := by decide
  unfold val_main_v26
  rw [Host.reduce_eq_fold_single FloatOps.maximumf _ _ reducesTo_S4x12x2048x2048_S4x12x2048_d3 hR h_S_]
  have hf : (val_main_v25 (F := Ideal) x0 x1 x2 ∘ hR.lift (ix3 b h i))
      = fun k : Fin 2048 => val_main_v25 (F := Ideal) x0 x1 x2 (ix4 b h i k) :=
    funext fun k => congrArg (val_main_v25 (F := Ideal) x0 x1 x2) (lift_ix3 hR b h i k)
  exact congrArg (fun f => Finset.fold max (Ideal.ofBits .f32 0xFF800000#32) f (Finset.univ : Finset (Fin 2048))) hf

/-- Stage 28: one more max with minus infinity leaves the row maximum as it is. -/
theorem v28_at (b : Fin 4) (h : Fin 12) (i : Fin 2048) :
    val_main_v28 (F := Ideal) x0 x1 x2 (ix3 b h i)
      = (Finset.univ : Finset (Fin 2048)).fold max (Ideal.ofBits .f32 0xFF800000#32)
          (fun k => val_main_v25 (F := Ideal) x0 x1 x2 (ix4 b h i k)) := by
  rw [val_main_v28_apply, val_main_v27_apply, val_main_cst_3_apply, v26_at]
  exact max_fold_max_self _ _ _

/-- Stage 30: the row maximum broadcast back along the row. -/
theorem v30_at (b : Fin 4) (h : Fin 12) (i j : Fin 2048) :
    val_main_v30 (F := Ideal) x0 x1 x2 (ix4 b h i j)
      = (Finset.univ : Finset (Fin 2048)).fold max (Ideal.ofBits .f32 0xFF800000#32)
          (fun k => val_main_v25 (F := Ideal) x0 x1 x2 (ix4 b h i k)) := by
  have e : idx_main_v29 (idx_main_v30 (ix4 b h i j)) = ix3 b h i :=
    funext fun a => Fin.ext (by match a with | ⟨0, _⟩ => rfl | ⟨1, _⟩ => rfl | ⟨2, _⟩ => rfl)
  rw [val_main_v30_apply, val_main_v29_apply, e, v28_at]

/-- Stage 32: the exponential of a logit's distance below its row's maximum. -/
theorem v32_at (b : Fin 4) (h : Fin 12) (i j : Fin 2048) :
    val_main_v32 (F := Ideal) x0 x1 x2 (ix4 b h i j)
      = Ideal.exp (val_main_v25 (F := Ideal) x0 x1 x2 (ix4 b h i j)
          - (Finset.univ : Finset (Fin 2048)).fold max (Ideal.ofBits .f32 0xFF800000#32)
              (fun k => val_main_v25 (F := Ideal) x0 x1 x2 (ix4 b h i k))) := by
  rw [val_main_v32_apply, val_main_v31_apply, v30_at]
  rfl

/-- Stage 33: the row's sum of the exponentials. -/
theorem v33_at (b : Fin 4) (h : Fin 12) (i : Fin 2048) :
    val_main_v33 (F := Ideal) x0 x1 x2 (ix3 b h i)
      = ∑ k : Fin 2048, val_main_v32 (F := Ideal) x0 x1 x2 (ix4 b h i k) := by
  have e : ∀ k : Fin 2048, idx_main_v33 (ix3 b h i) k = ix4 b h i k := fun k =>
    funext fun a => Fin.ext (by match a with | ⟨0, _⟩ => rfl | ⟨1, _⟩ => rfl | ⟨2, _⟩ => rfl | ⟨3, _⟩ => rfl)
  rw [val_main_v33_apply, val_main_cst_4_apply]
  simp only [e]
  rw [Ideal.ofBits_def, Ideal.ofBits_zero_f32, zero_add]

/-- Stage 36: an exponential over its row's sum. -/
theorem v36_at (b : Fin 4) (h : Fin 12) (i j : Fin 2048) :
    val_main_v36 (F := Ideal) x0 x1 x2 (ix4 b h i j)
      = Ideal.div (val_main_v32 (F := Ideal) x0 x1 x2 (ix4 b h i j))
          (∑ k : Fin 2048, val_main_v32 (F := Ideal) x0 x1 x2 (ix4 b h i k)) := by
  have e : idx_main_v34 (idx_main_v35 (ix4 b h i j)) = ix3 b h i :=
    funext fun a => Fin.ext (by match a with | ⟨0, _⟩ => rfl | ⟨1, _⟩ => rfl | ⟨2, _⟩ => rfl)
  rw [val_main_v36_apply, val_main_v35_apply, val_main_v34_apply, e, v33_at]
  rfl

/-- Stage 37: the weighted sum of the value vectors, entry d of head h for the query at position i. -/
theorem v37_at (b : Fin 4) (h : Fin 12) (i : Fin 2048) (d : Fin 64) :
    val_main_v37 (F := Ideal) x0 x1 x2 (ix4 b h i d)
      = ∑ j : Fin 2048, val_main_v36 (F := Ideal) x0 x1 x2 (ix4 b h i j) * val_main_v12 (F := Ideal) x0 x1 x2 (ix4 b h j d) := by
  have el : ∀ k : Fin 2048, lidx_main_v37 (ix4 b h i d) k = ix4 b h i k := fun k =>
    funext fun a => Fin.ext (by match a with | ⟨0, _⟩ => rfl | ⟨1, _⟩ => rfl | ⟨2, _⟩ => rfl | ⟨3, _⟩ => rfl)
  have er : ∀ k : Fin 2048, ridx_main_v37 (ix4 b h i d) k = ix4 b h k d := fun k =>
    funext fun a => Fin.ext (by match a with | ⟨0, _⟩ => rfl | ⟨1, _⟩ => rfl | ⟨2, _⟩ => rfl | ⟨3, _⟩ => rfl)
  rw [val_main_v37_apply]
  simp only [el, er]

/-- Stages 38 and 39, the heads laid side by side again: feature e of token (b, s) is entry e % 64 of head e / 64. -/
theorem v39_at (b : Fin 4) (s : Fin 2048) (e : Fin 768) :
    val_main_v39 (F := Ideal) x0 x1 x2 (ix3 b s e)
      = val_main_v37 (F := Ideal) x0 x1 x2
          (ix4 b (Cert.Attn.headOf e) s (⟨e.val % 64, Nat.mod_lt _ (by decide)⟩ : Fin 64)) := by
  have hb := b.isLt; have hs := s.isLt; have he := e.isLt
  have ei : idx_main_v38 (idx_main_v39 (ix3 b s e))
      = ix4 b (Cert.Attn.headOf e) s (⟨e.val % 64, Nat.mod_lt _ (by decide)⟩ : Fin 64) :=
    funext fun a => Fin.ext (by
      match a with
      | ⟨0, _⟩ => show ((b.val * 2048 + s.val) * 768 + e.val) / 1572864 = b.val; omega
      | ⟨1, _⟩ => show ((b.val * 2048 + s.val) * 768 + e.val) / 64 % 12 = e.val / 64; omega
      | ⟨2, _⟩ => show ((b.val * 2048 + s.val) * 768 + e.val) / 768 % 2048 = s.val; omega
      | ⟨3, _⟩ => show ((b.val * 2048 + s.val) * 768 + e.val) % 64 = e.val % 64; omega)
  rw [val_main_v39_apply, val_main_v38_apply, ei]

/-- A feature is entry e % 64 of head e / 64. -/
theorem col_headOf (e : Fin 768) :
    Cert.Attn.col (Cert.Attn.headOf e) (⟨e.val % 64, Nat.mod_lt _ (by decide)⟩ : Fin 64) = e :=
  Fin.ext (by show e.val / 64 * 64 + e.val % 64 = e.val; omega)

variable (x3 : (⟨S768x768, .f32⟩ : BufTy).Contents (Elt Ideal)) (x4 : (⟨S768, .f32⟩ : BufTy).Contents (Elt Ideal))

/-- Stages 40 to 43, the last projection: the token's merged features times the matrix, plus the bias. -/
theorem v43_at (b : Fin 4) (s : Fin 2048) (e : Fin 768) :
    val_main_v43 (F := Ideal) x0 x1 x2 x3 x4 (ix3 b s e)
      = (∑ k : Fin 768, val_main_v39 (F := Ideal) x0 x1 x2 (ix3 b s k) * x3 (ix2 k e)) + x4 (ix1 e) := by
  have el : ∀ k : Fin 768, lidx_main_v40 (ix3 b s e) k = ix3 b s k := fun k =>
    funext fun a => Fin.ext (by match a with | ⟨0, _⟩ => rfl | ⟨1, _⟩ => rfl | ⟨2, _⟩ => rfl)
  have er : ∀ k : Fin 768, ridx_main_v40 (ix3 b s e) k = ix2 k e := fun k =>
    funext fun a => Fin.ext (by match a with | ⟨0, _⟩ => rfl | ⟨1, _⟩ => rfl)
  have eb : idx_main_v41 (idx_main_v42 (ix3 b s e)) = ix1 e :=
    funext fun a => Fin.ext (by match a with | ⟨0, _⟩ => rfl)
  rw [val_main_v43_apply, val_main_v40_apply, val_main_v42_apply, val_main_v41_apply, eb]
  simp only [el, er]
  rfl

/-- With the logits as the specification's, an exponential of stage 32 is the specification's unnormalised weight. -/
theorem v32_eq_weightRow
    (hL : ∀ (b : Fin 4) (h : Fin 12) (i j : Fin 2048),
      val_main_v25 (F := Ideal) x0 x1 x2 (ix4 b h i j)
        = Cert.Attn.logitRow (fun d => Cert.Attn.qOf x0 x1 x2 b i (Cert.Attn.col h d))
            (fun j' d => Cert.Attn.kOf x0 x1 x2 b j' (Cert.Attn.col h d)) i.val j)
    (b : Fin 4) (h : Fin 12) (i j : Fin 2048) :
    val_main_v32 (F := Ideal) x0 x1 x2 (ix4 b h i j)
      = Cert.Attn.weightRow (fun d => Cert.Attn.qOf x0 x1 x2 b i (Cert.Attn.col h d))
          (fun j' d => Cert.Attn.kOf x0 x1 x2 b j' (Cert.Attn.col h d)) i.val j := by
  rw [v32_at]
  unfold Cert.Attn.weightRow
  simp only [hL]

/-- With the logits and the value heads as the specification's, the merged features of stage 39 are the
    specification's: the softmax-weighted sum of the values of the feature's head. -/
theorem v39_eq_ctx
    (hV : ∀ (b : Fin 4) (h : Fin 12) (j : Fin 2048) (d : Fin 64),
      val_main_v12 (F := Ideal) x0 x1 x2 (ix4 b h j d) = Cert.Attn.vOf x0 x1 x2 b j (Cert.Attn.col h d))
    (hL : ∀ (b : Fin 4) (h : Fin 12) (i j : Fin 2048),
      val_main_v25 (F := Ideal) x0 x1 x2 (ix4 b h i j)
        = Cert.Attn.logitRow (fun d => Cert.Attn.qOf x0 x1 x2 b i (Cert.Attn.col h d))
            (fun j' d => Cert.Attn.kOf x0 x1 x2 b j' (Cert.Attn.col h d)) i.val j)
    (b : Fin 4) (s : Fin 2048) (e : Fin 768) :
    val_main_v39 (F := Ideal) x0 x1 x2 (ix3 b s e)
      = Cert.Attn.ctx (Cert.Attn.qOf x0 x1 x2) (Cert.Attn.kOf x0 x1 x2) (Cert.Attn.vOf x0 x1 x2) b s e := by
  rw [v39_at, v37_at]
  unfold Cert.Attn.ctx Cert.Attn.attnEntry
  refine Finset.sum_congr rfl fun j _ => ?_
  rw [hV, col_headOf, v36_at]
  simp only [v32_eq_weightRow x0 x1 x2 hL]

end Stages

/-- The reference's result, from the logits and the value heads on, is the specification's. -/
theorem tail_eq (x0 : (⟨S4x2048x768, .f32⟩ : BufTy).Contents (Elt Ideal)) (x1 : (⟨S768x2304, .f32⟩ : BufTy).Contents (Elt Ideal))
    (x2 : (⟨S2304, .f32⟩ : BufTy).Contents (Elt Ideal))
    (x3 : (⟨S768x768, .f32⟩ : BufTy).Contents (Elt Ideal)) (x4 : (⟨S768, .f32⟩ : BufTy).Contents (Elt Ideal))
    (hV : ∀ (b : Fin 4) (h : Fin 12) (j : Fin 2048) (d : Fin 64),
      val_main_v12 (F := Ideal) x0 x1 x2 (ix4 b h j d) = Cert.Attn.vOf x0 x1 x2 b j (Cert.Attn.col h d))
    (hL : ∀ (b : Fin 4) (h : Fin 12) (i j : Fin 2048),
      val_main_v25 (F := Ideal) x0 x1 x2 (ix4 b h i j)
        = Cert.Attn.logitRow (fun d => Cert.Attn.qOf x0 x1 x2 b i (Cert.Attn.col h d))
            (fun j' d => Cert.Attn.kOf x0 x1 x2 b j' (Cert.Attn.col h d)) i.val j) :
    val_main_v43 (F := Ideal) x0 x1 x2 x3 x4 = Cert.Attn.out x0 x1 x2 x3 x4 := by
  funext i
  obtain ⟨b, s, e, rfl⟩ : ∃ (b : Fin 4) (s : Fin 2048) (e : Fin 768), i = ix3 b s e := ⟨i 0, i 1, i 2, eq_ix3 i⟩
  rw [v43_at]
  simp only [v39_eq_ctx x0 x1 x2 hV hL]
  rfl

end Cert.ReferenceIdeal.RefTail

end
-- ==== Proof.RefValue.lean ====
/-
  The reference program's result is the specification of the attention block applied to its arguments: the head of
  the program (projections, head split, masked logits) and its tail (softmax, weighted values, merge, output
  projection), joined.
-/
import proofs.«113351_j20151986553284_2_alg».proof.Proof.RefLogits
import proofs.«113351_j20151986553284_2_alg».proof.Proof.RefTail

noncomputable section

namespace Cert.ReferenceIdeal.RefValue

open Cert.ReferenceIdeal Cert.ReferenceIdeal.Gen Cert.ReferenceIdeal.Read Idealize.ShloMosaic Idealize.ShloMosaic.TcCoe Idealize.SL.Sem

/-- The result the reference's run names, as the specification of the launch memory's argument arrays. -/
theorem result_eq (m : (ℓ : Loc nD τ sig) → Buf (Elt Ideal) ℓ) (c : Dev nD) :
    Cert.ReferenceIdeal.Value.res_main_v43 (F := Ideal) m c
      = Cert.Attn.out (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) :=
  (val_main_v43_eq m c).trans
    (Cert.ReferenceIdeal.RefTail.tail_eq _ _ _ _ _
      (Cert.ReferenceIdeal.RefLogits.values_eq _ _ _) (Cert.ReferenceIdeal.RefLogits.logits_eq _ _ _))

end Cert.ReferenceIdeal.RefValue

end
-- ==== Proof.lean ====
/-
  A causal self-attention block (4 sequences of 2048 tokens, 768 features, 12 heads of 64): the Pallas program — a
  fused query/key/value projection, attention computed tile by tile of 256 queries directly on the flat feature layout,
  and an output projection, three kernel launches with reshapes and column slices between them — against the plain
  array program that splits the heads by reshape and transpose and masks the logits arithmetically.

  On the extended reals the two programs compute ONE function of the arguments, `Cert.Attn.out` (Proof/Spec.lean):
    * the changes of float format in the kernels are the identity, and every product into a zero accumulator is the
      plain sum over the contracted axis, on both sides over the same index set;
    * the kernel fills the logits of the keys after the query by a select on `key ≤ query`; the reference multiplies
      the logits by the lower-triangular 0/1 matrix and adds the fill word times its complement, and
      `s · 1 + c · (1 − 1) = s`, `s · 0 + c · (1 − 0) = c` hold for EVERY extended real `s` — so no finiteness of the
      inputs is used anywhere;
    * both take the softmax of the whole row of 2048 logits, filled ones included: the maximum as a fold of `max` from
      minus infinity, the exponentials of the distances below it, their sum, the quotient.
  The kernel side reads each launch's output array off the run block by block (Proof/Region0, Region1, Region2 over
  Proof/Linear, Proof/Block1, Proof/HeadValue), the host operations between the launches at an index
  (Proof/HostGlue), and joins them (Proof/KernelValue); the reference side reads its stages at an index
  (Proof/RefLogits, Proof/RefTail, Proof/RefValue). The ideal pass rewrote nothing, so the idealized kernel program is
  the kernel program's own text and `preserves` has nothing to state.
-/
import proofs.«113351_j20151986553284_2_alg».proof.Defs
import proofs.«113351_j20151986553284_2_alg».proof.Proof.Gen.Kernel
import proofs.«113351_j20151986553284_2_alg».proof.Proof.Gen.Kernel.Skeleton
import proofs.«113351_j20151986553284_2_alg».proof.Proof.Gen.Kernel.Launch
import proofs.«113351_j20151986553284_2_alg».proof.Proof.Gen.Kernel.Points
import proofs.«113351_j20151986553284_2_alg».proof.Proof.KernelFrame
import proofs.«113351_j20151986553284_2_alg».proof.Proof.Gen.KernelIdeal
import proofs.«113351_j20151986553284_2_alg».proof.Proof.Gen.KernelIdeal.Skeleton
import proofs.«113351_j20151986553284_2_alg».proof.Proof.Gen.KernelIdeal.Launch
import proofs.«113351_j20151986553284_2_alg».proof.Proof.Gen.KernelIdeal.Points
import proofs.«113351_j20151986553284_2_alg».proof.Proof.KernelIdealFrame
import proofs.«113351_j20151986553284_2_alg».proof.Proof.Gen.ReferenceIdeal
import proofs.«113351_j20151986553284_2_alg».proof.Proof.Gen.ReferenceIdeal.Run
import proofs.«113351_j20151986553284_2_alg».proof.Proof.Gen.Pre_finite_inputs
import proofs.«113351_j20151986553284_2_alg».proof.Proof.RunValue
import proofs.«113351_j20151986553284_2_alg».proof.Proof.KernelValue
import proofs.«113351_j20151986553284_2_alg».proof.Proof.RefValue
import Idealize.ShloMosaic.Adequacy
import Idealize.ShloMosaic.Init

noncomputable section

namespace Cert.Proof

open Idealize.ShloMosaic Idealize.ShloMosaic.TcCoe Idealize.SL.Sem

/-- The word-level kernel program runs, faults nowhere and keeps its arguments. -/
theorem frame_kernel [Cert.Kernel.Facts] [Cert.Pre_finite_inputs.Facts] : Cert.frame_Kernel :=
  fun m ρ _ => Cert.Kernel.GenP.frame m ρ

/-- So does the idealized kernel program. -/
theorem frame_kernelIdeal [Cert.KernelIdeal.Facts] [Cert.Pre_finite_inputs.Facts] : Cert.frame_KernelIdeal :=
  fun m ρ _ => Cert.KernelIdeal.GenP.frame m ρ

/-- The reference program's frame is its run with the result forgotten. -/
theorem frame_reference [Cert.ReferenceIdeal.Facts] [Cert.Pre_finite_inputs.Facts] : Cert.frame_ReferenceIdeal :=
  fun m ρ _ => (θ_run Cert.ReferenceIdeal.defs _ _).mono (fun _ h c => (h c).2)
    (Cert.ReferenceIdeal.Value.run (F := Ideal) m ρ)

/-- From memories agreeing on the arguments both programs end with the specification of those arguments. -/
theorem algebraic [Cert.KernelIdeal.Facts] [Cert.ReferenceIdeal.Facts] [Cert.Pre_finite_inputs.Facts] :
    Cert.algebraic_KernelIdeal_ReferenceIdeal := by
  intro m ρ m' ρ' _ hagree
  refine ⟨fun c => Cert.Attn.out (m ((c.tc : Thread _ _).loc Cert.KernelIdeal.main_arg0))
      (m ((c.tc : Thread _ _).loc Cert.KernelIdeal.main_arg1)) (m ((c.tc : Thread _ _).loc Cert.KernelIdeal.main_arg2))
      (m ((c.tc : Thread _ _).loc Cert.KernelIdeal.main_arg3)) (m ((c.tc : Thread _ _).loc Cert.KernelIdeal.main_arg4)), ?_, ?_⟩
  · exact (θ_run Cert.KernelIdeal.defs _ _).mono
      (fun r h c => ⟨(h c).1.trans (Cert.KernelIdeal.KernelValue.result_eq m ρ c), (h c).2⟩)
      (Cert.KernelIdeal.RunValue.run_named (F := Ideal) m ρ)
  · refine (θ_run Cert.ReferenceIdeal.defs _ _).mono (fun r h c => ⟨(h c).1.trans ?_, (h c).2⟩)
      (Cert.ReferenceIdeal.Value.run (F := Ideal) m' ρ')
    rw [Cert.ReferenceIdeal.RefValue.result_eq, (hagree c).1, (hagree c).2.1, (hagree c).2.2.1, (hagree c).2.2.2.1,
      (hagree c).2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
